-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000 : Shape := ⟨1, ![100000]⟩
abbrev S800000 : Shape := ⟨1, ![800000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000 : S_.BroadcastsInDim S100000 (![] : Fin 0 → Fin S100000.rank)
  reducesTo_S100000_S_d0 : S100000.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S16x40 .f32) (main_arg7 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg6
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : FVec F S100000 .f32) (main_arg2 : IVec S800000 32) (main_arg3 : IVec S800000 32) (main_arg4 : FVec F S256x16 .f32) (main_arg5 : FVec F S16 .f32) (main_arg6 : FVec F S16x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S256x16 .f32 := Host.absf main_arg4
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_v13 main_v16
-- ==== Kernel.lean ====
abbrev S100000x256 : Shape := ⟨2, ![100000, 256]⟩
abbrev S100000 : Shape := ⟨1, ![100000]⟩
abbrev S800000 : Shape := ⟨1, ![800000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩
abbrev S800000x1 : Shape := ⟨2, ![800000, 1]⟩
abbrev S100000x1 : Shape := ⟨2, ![100000, 1]⟩
abbrev S800000x256 : Shape := ⟨2, ![800000, 256]⟩
abbrev S20000x256 : Shape := ⟨2, ![20000, 256]⟩
abbrev S20000 : Shape := ⟨1, ![20000]⟩
abbrev S20000x1 : Shape := ⟨2, ![20000, 1]⟩
abbrev S1x16 : Shape := ⟨2, ![1, 16]⟩
abbrev S100000x16 : Shape := ⟨2, ![100000, 16]⟩
abbrev S5000x256 : Shape := ⟨2, ![5000, 256]⟩
abbrev S5000x1 : Shape := ⟨2, ![5000, 1]⟩
abbrev S5000x16 : Shape := ⟨2, ![5000, 16]⟩
abbrev S800000x16 : Shape := ⟨2, ![800000, 16]⟩
abbrev S20000x16 : Shape := ⟨2, ![20000, 16]⟩
abbrev S1x40 : Shape := ⟨2, ![1, 40]⟩
abbrev S100000x40 : Shape := ⟨2, ![100000, 40]⟩
abbrev S10000x16 : Shape := ⟨2, ![10000, 16]⟩
abbrev S10000x1 : Shape := ⟨2, ![10000, 1]⟩
abbrev S10000x40 : Shape := ⟨2, ![10000, 40]⟩
abbrev S10000 : Shape := ⟨1, ![10000]⟩

abbrev nBuf : Space → Nat
  | .hbm => 115
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S100000, .f32⟩
  | .hbm, ⟨2, _⟩ => ⟨S800000, .i32⟩
  | .hbm, ⟨3, _⟩ => ⟨S800000, .i32⟩
  | .hbm, ⟨4, _⟩ => ⟨S256x16, .f32⟩
  | .hbm, ⟨5, _⟩ => ⟨S16, .f32⟩
  | .hbm, ⟨6, _⟩ => ⟨S16x40, .f32⟩
  | .hbm, ⟨7, _⟩ => ⟨S40, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S100000, .f32⟩
  | .hbm, ⟨12, _⟩ => ⟨S800000x1, .i32⟩
  | .hbm, ⟨13, _⟩ => ⟨S100000, .f32⟩
  | .hbm, ⟨14, _⟩ => ⟨S100000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S800000x1, .f32⟩
  | .hbm, ⟨34, _⟩ => ⟨S800000x256, .f32⟩
  | .hbm, ⟨35, _⟩ => ⟨S800000x256, .f32⟩
  | .hbm, ⟨36, _⟩ => ⟨S_, .f32⟩
  | .hbm, ⟨37, _⟩ => ⟨S20000x256, .f32⟩
  | .hbm, ⟨38, _⟩ => ⟨S800000x1, .i32⟩
  | .hbm, ⟨39, _⟩ => ⟨S20000x256, .f32⟩
  | .hbm, ⟨40, _⟩ => ⟨S_, .f32⟩
  | .hbm, ⟨41, _⟩ => ⟨S20000, .f32⟩
  | .hbm, ⟨42, _⟩ => ⟨S800000x1, .i32⟩
  | .hbm, ⟨43, _⟩ => ⟨S20000, .f32⟩
  | .hbm, ⟨44, _⟩ => ⟨S_, .f32⟩
  | .hbm, ⟨45, _⟩ => ⟨S20000, .f32⟩
  | .hbm, ⟨46, _⟩ => ⟨S20000, .f32⟩
  | .hbm, ⟨47, _⟩ => ⟨S20000x1, .f32⟩
  | .hbm, ⟨48, _⟩ => ⟨S20000x256, .f32⟩
  | .hbm, ⟨49, _⟩ => ⟨S20000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S100000x256, .f32⟩
  | .hbm, ⟨61, _⟩ => ⟨S800000x1, .i32⟩
  | .hbm, ⟨62, _⟩ => ⟨S100000x256, .f32⟩
  | .hbm, ⟨63, _⟩ => ⟨S1x16, .f32⟩
  | .hbm, ⟨64, _⟩ => ⟨S100000x16, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x16, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000, .f32⟩
  | .hbm, ⟨83, _⟩ => ⟨S800000x1, .f32⟩
  | .hbm, ⟨84, _⟩ => ⟨S800000x16, .f32⟩
  | .hbm, ⟨85, _⟩ => ⟨S800000x16, .f32⟩
  | .hbm, ⟨86, _⟩ => ⟨S_, .f32⟩
  | .hbm, ⟨87, _⟩ => ⟨S20000x16, .f32⟩
  | .hbm, ⟨88, _⟩ => ⟨S800000x1, .i32⟩
  | .hbm, ⟨89, _⟩ => ⟨S20000x16, .f32⟩
  | .hbm, ⟨90, _⟩ => ⟨S_, .f32⟩
  | .hbm, ⟨91, _⟩ => ⟨S20000, .f32⟩
  | .hbm, ⟨92, _⟩ => ⟨S800000x1, .i32⟩
  | .hbm, ⟨93, _⟩ => ⟨S20000, .f32⟩
  | .hbm, ⟨94, _⟩ => ⟨S_, .f32⟩
  | .hbm, ⟨95, _⟩ => ⟨S20000, .f32⟩
  | .hbm, ⟨96, _⟩ => ⟨S20000, .f32⟩
  | .hbm, ⟨97, _⟩ => ⟨S20000x1, .f32⟩
  | .hbm, ⟨98, _⟩ => ⟨S20000x16, .f32⟩
  | .hbm, ⟨99, _⟩ => ⟨S20000x16, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x16, .f32⟩
  | .hbm, ⟨109, _⟩ => ⟨S_, .f32⟩
  | .hbm, ⟨110, _⟩ => ⟨S100000x16, .f32⟩
  | .hbm, ⟨111, _⟩ => ⟨S800000x1, .i32⟩
  | .hbm, ⟨112, _⟩ => ⟨S100000x16, .f32⟩
  | .hbm, ⟨113, _⟩ => ⟨S1x40, .f32⟩
  | .hbm, ⟨114, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x16, .f32⟩
  | .local _ .vmem, ⟨5, _⟩ => ⟨S1x16, .f32⟩
  | .local _ .vmem, ⟨6, _⟩ => ⟨S5000x16, .f32⟩
  | .local _ .vmem, ⟨7, _⟩ => ⟨S5000x16, .f32⟩
  | .local _ .vmem, ⟨8, _⟩ => ⟨S10000x16, .f32⟩
  | .local _ .vmem, ⟨9, _⟩ => ⟨S10000x16, .f32⟩
  | .local _ .vmem, ⟨10, _⟩ => ⟨S10000x1, .f32⟩
  | .local _ .vmem, ⟨11, _⟩ => ⟨S10000x1, .f32⟩
  | .local _ .vmem, ⟨12, _⟩ => ⟨S16x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S800000x1_S800000x256_0_1 : S800000x1.BroadcastsInDim S800000x256 (![0, 1] : Fin 2 → Fin S800000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  bcast_S16_S1x16_1 : S16.BroadcastsInDim S1x16 (![1] : Fin 1 → Fin S1x16.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S5000x1_S5000x256 : S5000x1.Broadcasts S5000x256
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S800000x1_S800000x16_0_1 : S800000x1.BroadcastsInDim S800000x16 (![0, 1] : Fin 2 → Fin S800000x16.rank)
  bcast_S_S20000x16 : S_.BroadcastsInDim S20000x16 (![] : Fin 0 → Fin S20000x16.rank)
  bcast_S20000x1_S20000x16_0_1 : S20000x1.BroadcastsInDim S20000x16 (![0, 1] : Fin 2 → Fin S20000x16.rank)
  bcast_S_S100000x16 : S_.BroadcastsInDim S100000x16 (![] : Fin 0 → Fin S100000x16.rank)
  bcast_S40_S1x40_1 : S40.BroadcastsInDim S1x40 (![1] : Fin 1 → Fin S1x40.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  broadcasts_S10000x1_S10000x16 : S10000x1.Broadcasts S10000x16
  inb_S16x40_S16x40_0_0 : ∀ a, (![0, 0] : Fin 2 → Nat) a + S16x40.size a ≤ S16x40.size a
  h_S16x40 : 0 < S16x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  gather_S100000_S800000x1_S800000_n_0_n_n_0_1_1_wf : GatherDims.WF S100000 S800000x1 S800000 [] [0] [] [0] [] 1 ![1]
  scatter_S20000x256_S800000x1_S800000x256_1_0_0_1_wf : ScatterDims.WF S20000x256 S800000x1 S800000x256 [1] [0] [0] 1
  scatter_S20000_S800000x1_S800000_n_0_0_1_wf : ScatterDims.WF S20000 S800000x1 S800000 [] [0] [0] 1
  gather_S20000x256_S800000x1_S800000x256_1_0_n_n_0_1_1256_wf : GatherDims.WF S20000x256 S800000x1 S800000x256 [1] [0] [] [0] [] 1 ![1, 256]
  scatter_S100000x256_S800000x1_S800000x256_1_0_0_1_wf : ScatterDims.WF S100000x256 S800000x1 S800000x256 [1] [0] [0] 1
  dot_S5000x256_S256x16_S5000x16_1_0_0_1_n_n_wf : DotDims.WF S5000x256 S256x16 S5000x16 [1] [0] [0] [1] [] []
  gather_S100000x16_S800000x1_S800000x16_1_0_n_n_0_1_116_wf : GatherDims.WF S100000x16 S800000x1 S800000x16 [1] [0] [] [0] [] 1 ![1, 16]
  scatter_S20000x16_S800000x1_S800000x16_1_0_0_1_wf : ScatterDims.WF S20000x16 S800000x1 S800000x16 [1] [0] [0] 1
  gather_S20000x16_S800000x1_S800000x16_1_0_n_n_0_1_116_wf : GatherDims.WF S20000x16 S800000x1 S800000x16 [1] [0] [] [0] [] 1 ![1, 16]
  scatter_S100000x16_S800000x1_S800000x16_1_0_0_1_wf : ScatterDims.WF S100000x16 S800000x1 S800000x16 [1] [0] [0] 1
  dot_S10000x16_S16x40_S10000x40_1_0_0_1_n_n_wf : DotDims.WF S10000x16 S16x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x40.size a ≤ S100000x40.size a
  hwx1_4 : ∀ i : grid1.Coords, EltTy.bits .f32 = 32 ∨ (Rect.block (s := S100000x40) S10000x40.size (cc1_transform_4 i) (hinb1_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def scatter_S20000x256_S800000x1_S800000x256_1_0_0_1 : ScatterDims S20000x256 S800000x1 S800000x256 where
  updateWindowDims := [1]
  insertedWindowDims := [0]
  scatterDimsToOperandDims := [0]
  indexVectorDim := 1
  wf := scatter_S20000x256_S800000x1_S800000x256_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def gather_S20000x256_S800000x1_S800000x256_1_0_n_n_0_1_1256 : GatherDims S20000x256 S800000x1 S800000x256 where
  offsetDims := [1]
  collapsedSliceDims := [0]
  operandBatchingDims := []
  startIndicesBatchingDims := []
  startIndexMap := [0]
  indexVectorDim := 1
  sliceSizes := ![1, 256]
  wf := gather_S20000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def scatter_S20000x16_S800000x1_S800000x16_1_0_0_1 : ScatterDims S20000x16 S800000x1 S800000x16 where
  updateWindowDims := [1]
  insertedWindowDims := [0]
  scatterDimsToOperandDims := [0]
  indexVectorDim := 1
  wf := scatter_S20000x16_S800000x1_S800000x16_1_0_0_1_wf
def gather_S20000x16_S800000x1_S800000x16_1_0_n_n_0_1_116 : GatherDims S20000x16 S800000x1 S800000x16 where
  offsetDims := [1]
  collapsedSliceDims := [0]
  operandBatchingDims := []
  startIndicesBatchingDims := []
  startIndexMap := [0]
  indexVectorDim := 1
  sliceSizes := ![1, 16]
  wf := gather_S20000x16_S800000x1_S800000x16_1_0_n_n_0_1_116_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf

abbrev win0_0 : Pipeline.Window sig grid0 :=
  Pipeline.Window.ofSpec (Memref.whole main_v42) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S5000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v82) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S10000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S100000 : Shape := ⟨1, ![100000]⟩
abbrev S800000 : Shape := ⟨1, ![800000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩
abbrev S800000x1 : Shape := ⟨2, ![800000, 1]⟩
abbrev S800000x256 : Shape := ⟨2, ![800000, 256]⟩
abbrev S20000x256 : Shape := ⟨2, ![20000, 256]⟩
abbrev S20000 : Shape := ⟨1, ![20000]⟩
abbrev S20000x1 : Shape := ⟨2, ![20000, 1]⟩
abbrev S100000x1 : Shape := ⟨2, ![100000, 1]⟩
abbrev S100000x16 : Shape := ⟨2, ![100000, 16]⟩
abbrev S1x16 : Shape := ⟨2, ![1, 16]⟩
abbrev S800000x16 : Shape := ⟨2, ![800000, 16]⟩
abbrev S20000x16 : Shape := ⟨2, ![20000, 16]⟩
abbrev S100000x40 : Shape := ⟨2, ![100000, 40]⟩
abbrev S1x40 : Shape := ⟨2, ![1, 40]⟩

abbrev nBuf : Space → Nat
  | .hbm => 172
  | .vmem => 0
  | .smem => 0
  | _ => 0

abbrev hbmTy0_0 (i : Nat) : BufTy := match i % 128 with
  | 0 => ⟨S100000x256, .f32⟩
  | 1 => ⟨S100000, .f32⟩
  | 2 => ⟨S800000, .i32⟩
  | 3 => ⟨S800000, .i32⟩
  | 4 => ⟨S256x16, .f32⟩
  | 5 => ⟨S16, .f32⟩
  | 6 => ⟨S16x40, .f32⟩
  | 7 => ⟨S40, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x256, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000, .f32⟩
  | 26 => ⟨S800000x1, .f32⟩
  | 27 => ⟨S800000x256, .f32⟩
  | 28 => ⟨S800000x256, .f32⟩
  | 29 => ⟨S_, .f32⟩
  | 30 => ⟨S20000x256, .f32⟩
  | 31 => ⟨S800000x1, .i32⟩
  | 32 => ⟨S20000x256, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .f32⟩
  | 43 => ⟨S20000, .f32⟩
  | 44 => ⟨S800000x1, .i32⟩
  | 45 => ⟨S20000, .f32⟩
  | 46 => ⟨S_, .f32⟩
  | 47 => ⟨S20000, .f32⟩
  | 48 => ⟨S20000, .f32⟩
  | 49 => ⟨S20000x1, .f32⟩
  | 50 => ⟨S20000x256, .f32⟩
  | 51 => ⟨S20000x256, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x256, .f32⟩
  | 61 => ⟨S_, .f32⟩
  | 62 => ⟨S100000x256, .f32⟩
  | 63 => ⟨S800000x1, .i32⟩
  | 64 => ⟨S100000x256, .f32⟩
  | 65 => ⟨S_, .f32⟩
  | 66 => ⟨S800000, .f32⟩
  | 67 => ⟨S_, .f32⟩
  | 68 => ⟨S100000, .f32⟩
  | 69 => ⟨S800000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x256, .f32⟩
  | 76 => ⟨S100000x256, .f32⟩
  | 77 => ⟨S100000x16, .f32⟩
  | 78 => ⟨S1x16, .f32⟩
  | 79 => ⟨S100000x16, .f32⟩
  | 80 => ⟨S100000x16, .f32⟩
  | 81 => ⟨S_, .f32⟩
  | 82 => ⟨S100000x16, .f32⟩
  | 83 => ⟨S100000x16, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x16, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000x1, .f32⟩
  | 103 => ⟨S800000x16, .f32⟩
  | 104 => ⟨S800000x16, .f32⟩
  | 105 => ⟨S_, .f32⟩
  | 106 => ⟨S20000x16, .f32⟩
  | 107 => ⟨S800000x1, .i32⟩
  | 108 => ⟨S20000x16, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S_, .f32⟩
  | 119 => ⟨S20000, .f32⟩
  | 120 => ⟨S800000x1, .i32⟩
  | 121 => ⟨S20000, .f32⟩
  | 122 => ⟨S_, .f32⟩
  | 123 => ⟨S20000, .f32⟩
  | 124 => ⟨S20000, .f32⟩
  | 125 => ⟨S20000x1, .f32⟩
  | 126 => ⟨S20000x16, .f32⟩
  | 127 => ⟨S20000x16, .f32⟩
  | _ => ⟨S100000x256, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x16, .f32⟩
  | 9 => ⟨S_, .f32⟩
  | 10 => ⟨S100000x16, .f32⟩
  | 11 => ⟨S800000x1, .i32⟩
  | 12 => ⟨S100000x16, .f32⟩
  | 13 => ⟨S_, .f32⟩
  | 14 => ⟨S800000, .f32⟩
  | 15 => ⟨S_, .f32⟩
  | 16 => ⟨S100000, .f32⟩
  | 17 => ⟨S800000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x16, .f32⟩
  | 24 => ⟨S100000x16, .f32⟩
  | 25 => ⟨S100000x40, .f32⟩
  | 26 => ⟨S1x40, .f32⟩
  | 27 => ⟨S100000x40, .f32⟩
  | 28 => ⟨S100000x40, .f32⟩
  | 29 => ⟨S_, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x40, .f32⟩
  | 36 => ⟨S100000x40, .f32⟩
  | 37 => ⟨S100000x40, .f32⟩
  | 38 => ⟨S_, .f32⟩
  | 39 => ⟨S100000, .f32⟩
  | 40 => ⟨S100000x1, .f32⟩
  | 41 => ⟨S100000x1, .f32⟩
  | 42 => ⟨S100000x40, .f32⟩
  | 43 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_22 : Ref sig .tc := ⟨.hbm, 128, rfl⟩
abbrev main_v94 : Ref sig .tc := ⟨.hbm, 129, rfl⟩
abbrev main_v95 : Ref sig .tc := ⟨.hbm, 130, rfl⟩
abbrev main_c_23 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_25 : Ref sig .tc := ⟨.hbm, 141, rfl⟩
abbrev main_v104 : Ref sig .tc := ⟨.hbm, 142, rfl⟩
abbrev main_cst_26 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_27 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_call1_cst : Ref sig .tc := ⟨.hbm, 157, rfl⟩
abbrev main_call1_v0 : Ref sig .tc := ⟨.hbm, 158, rfl⟩
abbrev main_call1_cst_0 : Ref sig .tc := ⟨.hbm, 159, rfl⟩
abbrev main_call1_v1 : Ref sig .tc := ⟨.hbm, 160, rfl⟩
abbrev main_call1_v2 : Ref sig .tc := ⟨.hbm, 161, rfl⟩
abbrev main_call1_v3 : Ref sig .tc := ⟨.hbm, 162, rfl⟩
abbrev main_call1_v4 : Ref sig .tc := ⟨.hbm, 163, rfl⟩
abbrev main_call1_v5 : Ref sig .tc := ⟨.hbm, 164, rfl⟩
abbrev main_call1_v6 : Ref sig .tc := ⟨.hbm, 165, rfl⟩
abbrev main_call1_cst_1 : Ref sig .tc := ⟨.hbm, 166, rfl⟩
abbrev main_call1_v7 : Ref sig .tc := ⟨.hbm, 167, rfl⟩
abbrev main_call1_v8 : Ref sig .tc := ⟨.hbm, 168, rfl⟩
abbrev main_call1_v9 : Ref sig .tc := ⟨.hbm, 169, rfl⟩
abbrev main_call1_v10 : Ref sig .tc := ⟨.hbm, 170, rfl⟩
abbrev main_v117 : Ref sig .tc := ⟨.hbm, 171, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S800000x1_S800000x16_0_1 : S800000x1.BroadcastsInDim S800000x16 (![0, 1] : Fin 2 → Fin S800000x16.rank)
  bcast_S_S20000x16 : S_.BroadcastsInDim S20000x16 (![] : Fin 0 → Fin S20000x16.rank)
  bcast_S20000x1_S20000x16_0_1 : S20000x1.BroadcastsInDim S20000x16 (![0, 1] : Fin 2 → Fin S20000x16.rank)
  bcast_S100000x1_S100000x16_0_1 : S100000x1.BroadcastsInDim S100000x16 (![0, 1] : Fin 2 → Fin S100000x16.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x256_S800000x1_S800000x256_1_0_n_n_0_1_1256_wf : GatherDims.WF S100000x256 S800000x1 S800000x256 [1] [0] [] [0] [] 1 ![1, 256]
  gather_S100000_S800000x1_S800000_n_0_n_n_0_1_1_wf : GatherDims.WF S100000 S800000x1 S800000 [] [0] [] [0] [] 1 ![1]
  scatter_S20000x256_S800000x1_S800000x256_1_0_0_1_wf : ScatterDims.WF S20000x256 S800000x1 S800000x256 [1] [0] [0] 1
  scatter_S20000_S800000x1_S800000_n_0_0_1_wf : ScatterDims.WF S20000 S800000x1 S800000 [] [0] [0] 1
  gather_S20000x256_S800000x1_S800000x256_1_0_n_n_0_1_1256_wf : GatherDims.WF S20000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S100000x256_S256x16_S100000x16_1_0_0_1_n_n_wf : DotDims.WF S100000x256 S256x16 S100000x16 [1] [0] [0] [1] [] []
  gather_S100000x16_S800000x1_S800000x16_1_0_n_n_0_1_116_wf : GatherDims.WF S100000x16 S800000x1 S800000x16 [1] [0] [] [0] [] 1 ![1, 16]
  scatter_S20000x16_S800000x1_S800000x16_1_0_0_1_wf : ScatterDims.WF S20000x16 S800000x1 S800000x16 [1] [0] [0] 1
  gather_S20000x16_S800000x1_S800000x16_1_0_n_n_0_1_116_wf : GatherDims.WF S20000x16 S800000x1 S800000x16 [1] [0] [] [0] [] 1 ![1, 16]
  scatter_S100000x16_S800000x1_S800000x16_1_0_0_1_wf : ScatterDims.WF S100000x16 S800000x1 S800000x16 [1] [0] [0] 1
  dot_S100000x16_S16x40_S100000x40_1_0_0_1_n_n_wf : DotDims.WF S100000x16 S16x40 S100000x40 [1] [0] [0] [1] [] []

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def scatter_S20000x256_S800000x1_S800000x256_1_0_0_1 : ScatterDims S20000x256 S800000x1 S800000x256 where
  updateWindowDims := [1]
  insertedWindowDims := [0]
  scatterDimsToOperandDims := [0]
  indexVectorDim := 1
  wf := scatter_S20000x256_S800000x1_S800000x256_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def gather_S20000x256_S800000x1_S800000x256_1_0_n_n_0_1_1256 : GatherDims S20000x256 S800000x1 S800000x256 where
  offsetDims := [1]
  collapsedSliceDims := [0]
  operandBatchingDims := []
  startIndicesBatchingDims := []
  startIndexMap := [0]
  indexVectorDim := 1
  sliceSizes := ![1, 256]
  wf := gather_S20000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def scatter_S20000x16_S800000x1_S800000x16_1_0_0_1 : ScatterDims S20000x16 S800000x1 S800000x16 where
  updateWindowDims := [1]
  insertedWindowDims := [0]
  scatterDimsToOperandDims := [0]
  indexVectorDim := 1
  wf := scatter_S20000x16_S800000x1_S800000x16_1_0_0_1_wf
def gather_S20000x16_S800000x1_S800000x16_1_0_n_n_0_1_116 : GatherDims S20000x16 S800000x1 S800000x16 where
  offsetDims := [1]
  collapsedSliceDims := [0]
  operandBatchingDims := []
  startIndicesBatchingDims := []
  startIndexMap := [0]
  indexVectorDim := 1
  sliceSizes := ![1, 16]
  wf := gather_S20000x16_S800000x1_S800000x16_1_0_n_n_0_1_116_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.KernelRun.lean ====
/-
  The idealized kernel program's run, with its RESULT named.

  The program is four segments: host operations, the first pallas_call (layer 1), host operations, the second pallas_call
  (layer 2). The frame certificate follows the buffer contents through the segments as a fold `W0 … W4` from the launch
  memory and ends with every unscoped buffer at `W4`; its own conclusion keeps only the argument arrays. Here the same
  run is stated once more with the result buffer kept too: after every weakly fair execution the result array is
  `W4` at its reference, and the arguments are as launched.
-/
import proofs.«180286_j58042188038707_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents `W4` and every argument array as launched. -/
theorem run_result : θ_run defs (onTc (τ := τ) (main (F := F))) ⟨m, fun _ => 0, ρ⟩ (fun r => ∀ c : Dev nD,
      r.2.mem ((c.tc : Thread nD τ).loc main_v84) = W4 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ Gen.L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Gen.R c)) (Tₙ := Tₙ m ρ)
    (hch := ⟨fun _ => .rfl, fun _ => .rfl, fun _ => .rfl, fun _ => .rfl, fun _ => .rfl⟩)
    (hinit := by
      refine Pipeline.initEach Gen.L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v84 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Layers

end
-- ==== Proof.NodeLayers.lean ====
/-
  The two dense stages of a two-layer hypergraph convolution, as functions on the extended reals, row by row.

  After the node → hyperedge → node averaging a node `r` holds a row of summed features `x r ·` and its degree `g r`
  (the number of incidences landing on it). A layer then divides the row by `max (g r) 1`, multiplies by a weight
  matrix, adds a bias (`nodeAffine`), and applies its activation: `max · 0` in the first layer (`reluLayer`), a
  row-wise log-softmax in the second (`logSoftmaxLayer`: subtract the row's maximum, then subtract the logarithm of the
  sum of the exponentials). Both are stated over arrays of any extents, so that the same function describes a block of
  rows and the whole array: an entry depends on ONE row of `x` and of `g`, on one column of the weights and on one entry
  of the bias.
-/
import Idealize.ShloMosaic.PureOps.Ideal
import Idealize.ShloMosaic.PureOps.Ideal.Laws
import Idealize.ShloMosaic.Lib.ValueIdx

noncomputable section

namespace Cert.HyperConv

open Idealize.ShloMosaic Idealize.ShloMosaic.ValueIdx

/-- The float words both programs carry: one (the floor of a degree), zero (the relu's floor and the empty sum), and
    minus infinity (the start of a row's maximum). They are never evaluated except where a law needs their value. -/
abbrev oneW : EReal := Ideal.ofBits .f32 0x3F800000#32
abbrev zeroW : EReal := Ideal.ofBits .f32 0x00000000#32
abbrev negInfW : EReal := Ideal.ofBits .f32 0xFF800000#32

/-- Minus infinity is the bottom of the extended reals: a maximum with it is the other operand. -/
theorem max_negInfW (y : EReal) : max negInfW y = y := by
  show max (Ideal.ofBits .f32 0xFF800000#32) y = y
  simp [Ideal.ofBits, Ideal.ieee]

theorem zeroW_add (y : EReal) : zeroW + y = y := by
  show Ideal.ofBits .f32 0x00000000#32 + y = y
  rw [Ideal.ofBits_zero_f32, zero_add]

/-- One node's pre-activation in one output column: its row `x` divided by its floored degree, against the column `w`
    of the weights, plus the bias entry. -/
def nodeAffine {d : Nat} (x : Fin d → EReal) (g : EReal) (w : Fin d → EReal) (b : EReal) : EReal :=
  (∑ k : Fin d, Ideal.div (x k) (max g oneW) * w k) + b

variable {n d h : Nat}

/-- The pre-activations of every node: rows of `X`, the degree column `D`, weights `W`, the bias row `B`. -/
def preact (X : (⟨2, ![n, d]⟩ : Shape).Idx → EReal) (D : (⟨2, ![n, 1]⟩ : Shape).Idx → EReal)
    (W : (⟨2, ![d, h]⟩ : Shape).Idx → EReal) (B : (⟨2, ![1, h]⟩ : Shape).Idx → EReal) (r : Fin n) (j : Fin h) : EReal :=
  nodeAffine (fun k => X (ix2 r k)) (D (ix2 r (0 : Fin 1))) (fun k => W (ix2 k j)) (B (ix2 (0 : Fin 1) j))

/-- The first layer: the pre-activation floored at zero. -/
def reluLayer (X : (⟨2, ![n, d]⟩ : Shape).Idx → EReal) (D : (⟨2, ![n, 1]⟩ : Shape).Idx → EReal)
    (W : (⟨2, ![d, h]⟩ : Shape).Idx → EReal) (B : (⟨2, ![1, h]⟩ : Shape).Idx → EReal) :
    (⟨2, ![n, h]⟩ : Shape).Idx → EReal :=
  fun i => max (preact X D W B (i 0) (i 1)) zeroW

/-- A row's maximum, folded from minus infinity. -/
def rowMax (y : Fin h → EReal) : EReal := (Finset.univ : Finset (Fin h)).fold max negInfW y

/-- The log-softmax of a row at column `j`: the entry less the row's maximum, less the logarithm of the sum of the
    exponentials of the row so shifted. -/
def logSoftmaxRow (y : Fin h → EReal) (j : Fin h) : EReal :=
  (y j - rowMax y) - Ideal.log (∑ k : Fin h, Ideal.exp (y k - rowMax y))

/-- The second layer: the row-wise log-softmax of the pre-activations. -/
def logSoftmaxLayer (X : (⟨2, ![n, d]⟩ : Shape).Idx → EReal) (D : (⟨2, ![n, 1]⟩ : Shape).Idx → EReal)
    (W : (⟨2, ![d, h]⟩ : Shape).Idx → EReal) (B : (⟨2, ![1, h]⟩ : Shape).Idx → EReal) :
    (⟨2, ![n, h]⟩ : Shape).Idx → EReal :=
  fun i => logSoftmaxRow (fun j => preact X D W B (i 0) j) (i 1)

theorem reluLayer_ix2 (X : (⟨2, ![n, d]⟩ : Shape).Idx → EReal) (D : (⟨2, ![n, 1]⟩ : Shape).Idx → EReal)
    (W : (⟨2, ![d, h]⟩ : Shape).Idx → EReal) (B : (⟨2, ![1, h]⟩ : Shape).Idx → EReal) (r : Fin n) (j : Fin h) :
    reluLayer X D W B (ix2 r j) = max (preact X D W B r j) zeroW := rfl

theorem logSoftmaxLayer_ix2 (X : (⟨2, ![n, d]⟩ : Shape).Idx → EReal) (D : (⟨2, ![n, 1]⟩ : Shape).Idx → EReal)
    (W : (⟨2, ![d, h]⟩ : Shape).Idx → EReal) (B : (⟨2, ![1, h]⟩ : Shape).Idx → EReal) (r : Fin n) (j : Fin h) :
    logSoftmaxLayer X D W B (ix2 r j) = logSoftmaxRow (fun j' => preact X D W B r j') j := rfl

end Cert.HyperConv

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.KernelBlocks.lean ====
/-
  What each kernel body stores, read at an entry of its block.

  The first body loads a block of summed features (5000 rows of 256), the block's degree column, the weights and the bias
  row, and stores the relu layer of those rows; the second loads 10000 rows of 16 and stores their log-softmax layer.
  Each stored value is one pure term of the loads (`k0_pay1`, `k1_pay1`); at `(p, j)` it is the layer function of the
  loaded blocks at `(p, j)`: the casts of a value to its own shape and the changes of float format are the identity on the
  extended reals, the matrix unit's product into a zero accumulator is the sum of products, the lane reductions are a
  row's fold of `max` and its sum.
-/
import proofs.«180286_j58042188038707_1_alg».proof.Proof.Gen.KernelIdeal.Skeleton
import proofs.«180286_j58042188038707_1_alg».proof.Proof.NodeLayers
import proofs.«180286_j58042188038707_1_alg».proof.Proof.LibDenseOps

noncomputable section

namespace Cert.KernelIdeal.Layers

open Cert.KernelIdeal Cert.KernelIdeal.Gen Idealize.ShloMosaic Idealize.ShloMosaic.ValueIdx Cert.HyperConv Cert.LibDenseOps

/-! ## The two matrix products' dimension records: rows of the left operand against columns of the right -/

theorem dotA_rank : dot_S5000x256_S256x16_S5000x16_1_0_0_1_n_n.contr.rank = 1 := rfl
theorem dotA_l0 (i : S5000x16.Idx) (q : dot_S5000x256_S256x16_S5000x16_1_0_0_1_n_n.contr.Idx) : (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem dotA_l1 (i : S5000x16.Idx) (q : dot_S5000x256_S256x16_S5000x16_1_0_0_1_n_n.contr.Idx) : (dot_S5000x256_S256x16_S5000x16_1_0_0_1_n_n.lhsIdx i q 1).val = (q ⟨0, by decide⟩).val :=
  dot_S5000x256_S256x16_S5000x16_1_0_0_1_n_n.lhsIdx_val_of_single rfl i q
theorem dotA_r0 (i : S5000x16.Idx) (q : dot_S5000x256_S256x16_S5000x16_1_0_0_1_n_n.contr.Idx) : (dot_S5000x256_S256x16_S5000x16_1_0_0_1_n_n.rhsIdx i q 0).val = (q ⟨0, by decide⟩).val :=
  dot_S5000x256_S256x16_S5000x16_1_0_0_1_n_n.rhsIdx_val_of_single rfl i q
theorem dotA_r1 (i : S5000x16.Idx) (q : dot_S5000x256_S256x16_S5000x16_1_0_0_1_n_n.contr.Idx) : (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

theorem dotB_rank : dot_S10000x16_S16x40_S10000x40_1_0_0_1_n_n.contr.rank = 1 := rfl
theorem dotB_l0 (i : S10000x40.Idx) (q : dot_S10000x16_S16x40_S10000x40_1_0_0_1_n_n.contr.Idx) : (dot_S10000x16_S16x40_S10000x40_1_0_0_1_n_n.lhsIdx i q 0).val = (i 0).val := by
  unfold DotDims.lhsIdx
  rw [dif_neg (show ¬(0 : Fin S10000x16.rank) ∈ dot_S10000x16_S16x40_S10000x40_1_0_0_1_n_n.lhsBatch by decide), dif_pos (show (0 : Fin S10000x16.rank) ∈ dot_S10000x16_S16x40_S10000x40_1_0_0_1_n_n.lhsNonContracting by decide)]
  rfl
theorem dotB_l1 (i : S10000x40.Idx) (q : dot_S10000x16_S16x40_S10000x40_1_0_0_1_n_n.contr.Idx) : (dot_S10000x16_S16x40_S10000x40_1_0_0_1_n_n.lhsIdx i q 1).val = (q ⟨0, by decide⟩).val :=
  dot_S10000x16_S16x40_S10000x40_1_0_0_1_n_n.lhsIdx_val_of_single rfl i q
theorem dotB_r0 (i : S10000x40.Idx) (q : dot_S10000x16_S16x40_S10000x40_1_0_0_1_n_n.contr.Idx) : (dot_S10000x16_S16x40_S10000x40_1_0_0_1_n_n.rhsIdx i q 0).val = (q ⟨0, by decide⟩).val :=
  dot_S10000x16_S16x40_S10000x40_1_0_0_1_n_n.rhsIdx_val_of_single rfl i q
theorem dotB_r1 (i : S10000x40.Idx) (q : dot_S10000x16_S16x40_S10000x40_1_0_0_1_n_n.contr.Idx) : (dot_S10000x16_S16x40_S10000x40_1_0_0_1_n_n.rhsIdx i q 1).val = (i 1).val := by
  unfold DotDims.rhsIdx
  rw [dif_neg (show ¬(1 : Fin S16x40.rank) ∈ dot_S10000x16_S16x40_S10000x40_1_0_0_1_n_n.rhsBatch by decide), dif_pos (show (1 : Fin S16x40.rank) ∈ dot_S10000x16_S16x40_S10000x40_1_0_0_1_n_n.rhsNonContracting by decide)]
  rfl

/-! ## The arithmetic both bodies share, at an entry -/

section General

variable {a k b : ℕ}

/-- A block's pre-activation at `(p, j)`: the rows divided by the column of floored degrees (a `[a, 1]` column broadcast
    over the row), rounded for the matrix unit (the identity on the extended reals), multiplied into a zero accumulator,
    plus the bias row broadcast over the rows. -/
theorem affine_apply (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (v0 : FVec Ideal ⟨2, ![a, 1]⟩ .f32) (v2 : FVec Ideal ⟨2, ![a, k]⟩ .f32) (v9 : FVec Ideal ⟨2, ![k, b]⟩ .f32)
    (v12 : FVec Ideal ⟨2, ![1, b]⟩ .f32)
    (c0 : (⟨2, ![a, 1]⟩ : Shape).ShapeCasts ⟨2, ![a, 1]⟩) (c2 : (⟨2, ![a, k]⟩ : Shape).ShapeCasts ⟨2, ![a, k]⟩)
    (c12 : (⟨2, ![1, b]⟩ : Shape).ShapeCasts ⟨2, ![1, b]⟩)
    (bD : (⟨2, ![a, 1]⟩ : Shape).Broadcasts ⟨2, ![a, k]⟩) (bB : (⟨2, ![1, b]⟩ : Shape).Broadcasts ⟨2, ![a, b]⟩)
    (hlt : FTy.bf16.bits < FTy.f32.bits) (p : Fin a) (j : Fin b) :
    addf (matmul D none
        (truncf .bf16 (divf (shapeCast ⟨2, ![a, k]⟩ v2 c2)
          (broadcastTo ⟨2, ![a, k]⟩ (maximumf (shapeCast ⟨2, ![a, 1]⟩ v0 c0)
            (broadcast ⟨2, ![a, 1]⟩ (FloatOps.ofBits .f32 0x3F800000#32))) bD)) hlt)
        (truncf .bf16 v9 hlt) (constant ⟨2, ![a, b]⟩ .f32 0x00000000#32))
      (broadcastTo ⟨2, ![a, b]⟩ (shapeCast ⟨2, ![1, b]⟩ v12 c12) bB) (ix2 p j)
      = preact v2 v0 v9 v12 p j := by
  rw [addf_apply, broadcastTo_1b_ab_apply, shapeCast_self v12 c12]
  unfold preact nodeAffine
  refine congrArg (· + v12 (ix2 (0 : Fin 1) j)) ?_
  refine (matmul_zero_ix2 D hr hs hl0 hl1 hr0 hr1 none _ _ p j).trans ?_
  refine Finset.sum_congr rfl fun q _ => ?_
  rw [truncf_apply, truncf_apply, divf_apply, shapeCast_self v2 c2, broadcastTo_a1_ab_apply, maximumf_apply,
    shapeCast_self v0 c0, broadcast_apply]
  rfl

/-- The log-softmax tail of a block of pre-activations `Y`, at `(p, j)`: the lane maximum of row `p` (from minus
    infinity) is made a column and subtracted; the exponentials are summed over the lanes (from zero), the sum made a
    column, its logarithm subtracted. -/
theorem logSoftmax_apply (Y : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ) (hadd : (0x00000000#32 : BitVec 32) = FKind.add.neutral .f32 hφ)
    (hsc : (⟨1, ![a]⟩ : Shape).ShapeCasts ⟨2, ![a, 1]⟩) (hbc : (⟨2, ![a, 1]⟩ : Shape).Broadcasts ⟨2, ![a, b]⟩)
    (p : Fin a) (j : Fin b) :
    subf (subf Y (broadcastTo ⟨2, ![a, b]⟩ (shapeCast ⟨2, ![a, 1]⟩ (multiReduction .maximumf [1] ⟨1, ![a]⟩ Y 0xFF800000#32 hred hφ hmax) hsc) hbc))
      (broadcastTo ⟨2, ![a, b]⟩ (log (shapeCast ⟨2, ![a, 1]⟩
        (multiReduction .add [1] ⟨1, ![a]⟩
          (exp (subf Y (broadcastTo ⟨2, ![a, b]⟩ (shapeCast ⟨2, ![a, 1]⟩ (multiReduction .maximumf [1] ⟨1, ![a]⟩ Y 0xFF800000#32 hred hφ hmax) hsc) hbc)))
          0x00000000#32 hred hφ hadd) hsc)) hbc) (ix2 p j)
      = logSoftmaxRow (fun c => Y (ix2 p c)) j := by
  have hM : ∀ c : Fin b, broadcastTo ⟨2, ![a, b]⟩ (shapeCast ⟨2, ![a, 1]⟩ (multiReduction .maximumf [1] ⟨1, ![a]⟩ Y 0xFF800000#32 hred hφ hmax) hsc) hbc (ix2 p c)
      = rowMax (fun c' => Y (ix2 p c')) := fun c => by
    rw [broadcastTo_a1_ab_apply, shapeCast_a_a1_apply]
    exact laneMax_apply Y _ hred hφ hmax p
  rw [subf_apply, subf_apply, hM, broadcastTo_a1_ab_apply]
  unfold logSoftmaxRow
  refine congrArg (fun t => (Y (ix2 p j) - rowMax (fun c' => Y (ix2 p c'))) - t) ?_
  show FloatOps.log (shapeCast ⟨2, ![a, 1]⟩ _ hsc (ix2 p (0 : Fin 1))) = _
  rw [shapeCast_a_a1_apply]
  refine (congrArg FloatOps.log (laneSum_apply _ _ hred hφ hadd p)).trans ?_
  refine congrArg Ideal.log (Finset.sum_congr rfl fun c _ => ?_)
  show FloatOps.exp (subf Y _ (ix2 p c)) = _
  rw [subf_apply, hM]
  rfl

end General

/-! ## The two stored values -/

/-- Layer 1's stored value at `(p, j)`: the pre-activation of row `p` in column `j`, floored at zero. -/
theorem pay1_apply (v0 : Vec Ideal S5000x1 .f32) (v2 : Vec Ideal S5000x256 .f32) (v9 : Vec Ideal S256x16 .f32) (v12 : Vec Ideal S1x16 .f32)
    (p : Fin 5000) (j : Fin 16) :
    k0_pay1 (F := Ideal) v0 v2 v9 v12 (ix2 p j) = max (preact v2 v0 v9 v12 p j) zeroW := by
  unfold k0_pay1
  rw [maximumf_apply, broadcast_apply]
  exact congrArg (max · zeroW)
    (affine_apply dot_S5000x256_S256x16_S5000x16_1_0_0_1_n_n dotA_rank rfl dotA_l0 dotA_l1 dotA_r0 dotA_r1 v0 v2 v9 v12 _ _ _ _ _ _ p j)

/-- Layer 2's stored value at `(p, j)`: the log-softmax of row `p`'s pre-activations, at column `j`. -/
theorem pay2_apply (v0 : Vec Ideal S10000x1 .f32) (v2 : Vec Ideal S10000x16 .f32) (v9 : Vec Ideal S16x40 .f32) (v12 : Vec Ideal S1x40 .f32)
    (p : Fin 10000) (j : Fin 40) :
    k1_pay1 (F := Ideal) v0 v2 v9 v12 (ix2 p j) = logSoftmaxRow (fun j' => preact v2 v0 v9 v12 p j') j := by
  unfold k1_pay1
  refine (logSoftmax_apply _ _ _ _ _ _ _ p j).trans ?_
  exact congrArg (fun f => logSoftmaxRow f j) (funext fun c =>
    affine_apply dot_S10000x16_S16x40_S10000x40_1_0_0_1_n_n dotB_rank rfl dotB_l0 dotB_l1 dotB_r0 dotB_r1 v0 v2 v9 v12 _ _ _ _ _ _ p c)

end Cert.KernelIdeal.Layers

end
-- ==== Proof.KernelArrays.lean ====
/-
  From blocks to arrays: what each pallas_call leaves in its output array.

  Each call runs its body once per block of rows (5000 rows per point in the first, 10000 in the second); a point reads
  its block of the summed features and of the degree column, the whole weight matrix and the bias row, and writes back
  its block of the output. An output entry depends only on its own row of the features and of the degree column, so
  block `t` of the layer function of the WHOLE arrays is the layer function of block `t`; the output's blocks tile its
  array, so after the call the output array IS the layer function of the arrays the region was entered with. Stated for
  any contents `V` the region is entered with.
-/
import proofs.«180286_j58042188038707_1_alg».proof.Proof.Gen.KernelIdeal.Frame
import proofs.«180286_j58042188038707_1_alg».proof.Proof.KernelBlocks
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem Cert.HyperConv
open Idealize.ShloMosaic.Pipeline (Dat Cfg Window)

/-- Two pre-activations agree when the row of features, the degree, the column of weights and the bias entry they read
    agree — whatever arrays (a block, the whole array) those are read from. -/
theorem preact_congr {n n' d h : Nat}
    (X : (⟨2, ![n, d]⟩ : Shape).Idx → EReal) (D : (⟨2, ![n, 1]⟩ : Shape).Idx → EReal)
    (W : (⟨2, ![d, h]⟩ : Shape).Idx → EReal) (B : (⟨2, ![1, h]⟩ : Shape).Idx → EReal)
    (X' : (⟨2, ![n', d]⟩ : Shape).Idx → EReal) (D' : (⟨2, ![n', 1]⟩ : Shape).Idx → EReal)
    (W' : (⟨2, ![d, h]⟩ : Shape).Idx → EReal) (B' : (⟨2, ![1, h]⟩ : Shape).Idx → EReal)
    (r : Fin n) (r' : Fin n') (j j' : Fin h)
    (hX : ∀ k, X (ix2 r k) = X' (ix2 r' k)) (hD : D (ix2 r (0 : Fin 1)) = D' (ix2 r' (0 : Fin 1)))
    (hW : ∀ k, W (ix2 k j) = W' (ix2 k j')) (hB : B (ix2 (0 : Fin 1) j) = B' (ix2 (0 : Fin 1) j')) :
    preact X D W B r j = preact X' D' W' B' r' j' := by
  unfold preact
  rw [funext hX, hD, funext hW, hB]

theorem hz : (![0, 0] : Fin 2 → Nat) = fun _ => 0 := funext fun a => by fin_cases a <;> rfl

variable (V : (c : Dev nD) → (b : Ref sig .tc) → Buf (Elt Ideal) ((c : Thread nD τ).loc b))

/-! ## Region 0: the relu layer, 20 blocks of 5000 rows -/

/-- The printed index maps over the grid: the row windows (features, degree column, output) sit at block `t` of their
    arrays, the weights and the bias row at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the layer function of the arrays as the region finds them: rows
    `5000·t … 5000·t + 4999` of the output depend on the same rows of the features and of the degree column. -/
theorem flushed0_eq (c : Dev nD) (t : Fin cfg0.N) :
    (dat0 V c).flushed 4 t = ((cfg0.win 4).blk t).view.read (Elt Ideal)
      (reluLayer (V c main_v42) (V c main_v4) (V c main_arg4) (V c main_v43)) := by
  show (cfg0.win 4).cut (grid0.coords t) ((dat0 V c).after 4 t) = _
  rw [after0_4]
  unfold out0_4
  rw [View.canon_unit_zero hz]
  simp only [View.ld_unit_zero (S := S5000x1) hz, View.ld_unit_zero (S := S5000x256) hz,
    View.ld_unit_zero (S := S256x16) hz, View.ld_unit_zero (S := S1x16) hz]
  obtain ⟨e0, e1, e2, e3, e4, e5, e6, e7, e8, e9⟩ := idx_facts0 t
  have ht : t.val < 20 := lt_of_lt_of_eq t.isLt N_0
  funext y
  obtain ⟨p, j, rfl⟩ : ∃ (p : Fin 5000) (j : Fin 16), y = ix2 p j := ⟨y 0, y 1, eq_ix2 y⟩
  have hp := p.isLt
  have hj := j.isLt
  have he : ((cfg0.win 4).blk t).view.emb (ix2 p j) = ix2 (⟨t.val * 5000 + p.val, by omega⟩ : Fin 100000) j := by
    funext a; apply Fin.ext
    match a with
    | ⟨0, _⟩ => show win0_4.index t (0 : Fin 2) * 5000 + 1 * p.val = t.val * 5000 + p.val; omega
    | ⟨1, _⟩ => show win0_4.index t (1 : Fin 2) * 16 + 1 * j.val = j.val; omega
  have hX : ∀ k : Fin 256, iblk0 V c 0 t (ix2 p k) = V c main_v42 (ix2 (⟨t.val * 5000 + p.val, by omega⟩ : Fin 100000) k) := fun k => by
    show V c main_v42 (((cfg0.win 0).blk t).view.emb (ix2 p k)) = _
    refine congrArg (V c main_v42) (funext fun a => Fin.ext ?_)
    have hk := k.isLt
    match a with
    | ⟨0, _⟩ => show win0_0.index t (0 : Fin 2) * 5000 + 1 * p.val = t.val * 5000 + p.val; omega
    | ⟨1, _⟩ => show win0_0.index t (1 : Fin 2) * 256 + 1 * k.val = k.val; omega
  have hD : iblk0 V c 1 t (ix2 p (0 : Fin 1)) = V c main_v4 (ix2 (⟨t.val * 5000 + p.val, by omega⟩ : Fin 100000) (0 : Fin 1)) := by
    show V c main_v4 (((cfg0.win 1).blk t).view.emb (ix2 p (0 : Fin 1))) = _
    refine congrArg (V c main_v4) (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  have hW : ∀ (k : Fin 256) (j' : Fin 16), iblk0 V c 2 t (ix2 k j') = V c main_arg4 (ix2 k j') := fun k j' => by
    show V c main_arg4 (((cfg0.win 2).blk t).view.emb (ix2 k j')) = _
    refine congrArg (V c main_arg4) (funext fun a => Fin.ext ?_)
    have hk := k.isLt
    have hj' := j'.isLt
    match a with
    | ⟨0, _⟩ => show win0_2.index t (0 : Fin 2) * 256 + 1 * k.val = k.val; omega
    | ⟨1, _⟩ => show win0_2.index t (1 : Fin 2) * 16 + 1 * j'.val = j'.val; omega
  have hB : ∀ j' : Fin 16, iblk0 V c 3 t (ix2 (0 : Fin 1) j') = V c main_v43 (ix2 (0 : Fin 1) j') := fun j' => by
    show V c main_v43 (((cfg0.win 3).blk t).view.emb (ix2 (0 : Fin 1) j')) = _
    refine congrArg (V c main_v43) (funext fun a => Fin.ext ?_)
    have hj' := j'.isLt
    match a with
    | ⟨0, _⟩ => show win0_3.index t (0 : Fin 2) * 1 + 1 * 0 = 0; omega
    | ⟨1, _⟩ => show win0_3.index t (1 : Fin 2) * 16 + 1 * j'.val = j'.val; omega
  refine (pay1_apply (iblk0 V c 1 t) (iblk0 V c 0 t) (iblk0 V c 2 t) (iblk0 V c 3 t) p j).trans ?_
  refine Eq.trans ?_ (congrArg (reluLayer (V c main_v42) (V c main_v4) (V c main_arg4) (V c main_v43)) he).symm
  rw [reluLayer_ix2]
  exact congrArg (max · zeroW) (preact_congr _ _ _ _ _ _ _ _ p _ j j hX hD (fun k => hW k j) (hB j))

/-- An index of the output array is in point `t`'s block iff each coordinate is in the block's range on its axis. -/
theorem mem_blk0 (t : Fin cfg0.N) (i : S100000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v44).slice (win0_4.rect t)).set ↔ _
  rw [View.set_slice_whole, Rect.mem_set_unit]
  exact Iff.rfl

/-- The output's blocks tile its array: row `r` is in the block of point `r / 5000`. -/
theorem cover0 (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  have hN : (i 0).val / 5000 < cfg0.N := lt_of_lt_of_eq (by omega : (i 0).val / 5000 < 20) N_0.symm
  refine ⟨⟨(i 0).val / 5000, hN⟩, flush0_4 _, ?_⟩
  rw [mem_blk0]
  obtain ⟨e0, e1, e2, e3, e4, e5, e6, e7, e8, e9⟩ := idx_facts0 ⟨(i 0).val / 5000, hN⟩
  intro a
  match a with
  | ⟨0, _⟩ =>
    show win0_4.index ⟨(i 0).val / 5000, hN⟩ (0 : Fin 2) * 5000 ≤ (i 0).val ∧ (i 0).val < win0_4.index ⟨(i 0).val / 5000, hN⟩ (0 : Fin 2) * 5000 + 5000
    rw [e8]; show (i 0).val / 5000 * 5000 ≤ (i 0).val ∧ (i 0).val < (i 0).val / 5000 * 5000 + 5000; omega
  | ⟨1, _⟩ =>
    show win0_4.index ⟨(i 0).val / 5000, hN⟩ (1 : Fin 2) * 16 ≤ (i 1).val ∧ (i 1).val < win0_4.index ⟨(i 0).val / 5000, hN⟩ (1 : Fin 2) * 16 + 16
    rw [e9]; omega

/-- The output array after the region: the layer function of the arrays the region was entered with. -/
theorem array0_eq (c : Dev nD) :
    (dat0 V c).arrAt 4 cfg0.N = reluLayer (V c main_v42) (V c main_v4) (V c main_arg4) (V c main_v43) :=
  (dat0 V c).arrAt_eq_of_cover 4 _ (fun t _ => flushed0_eq V c t) (cover0)

/-! ## Region 1: the log-softmax layer, 10 blocks of 10000 rows -/

/-- The printed index maps over the grid: the row windows (features, degree column, output) sit at block `t` of their
    arrays, the weights and the bias row at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the layer function of the arrays as the region finds them: rows
    `10000·t … 10000·t + 9999` of the output depend on the same rows of the features and of the degree column. -/
theorem flushed1_eq (c : Dev nD) (t : Fin cfg1.N) :
    (dat1 V c).flushed 4 t = ((cfg1.win 4).blk t).view.read (Elt Ideal)
      (logSoftmaxLayer (V c main_v82) (V c main_v4) (V c main_arg6) (V c main_v83)) := by
  show (cfg1.win 4).cut (grid1.coords t) ((dat1 V c).after 4 t) = _
  rw [after1_4]
  unfold out1_4
  rw [View.canon_unit_zero hz]
  simp only [View.ld_unit_zero (S := S10000x1) hz, View.ld_unit_zero (S := S10000x16) hz,
    View.ld_unit_zero (S := S16x40) hz, View.ld_unit_zero (S := S1x40) hz]
  obtain ⟨e0, e1, e2, e3, e4, e5, e6, e7, e8, e9⟩ := idx_facts1 t
  have ht : t.val < 10 := lt_of_lt_of_eq t.isLt N_1
  funext y
  obtain ⟨p, j, rfl⟩ : ∃ (p : Fin 10000) (j : Fin 40), y = ix2 p j := ⟨y 0, y 1, eq_ix2 y⟩
  have hp := p.isLt
  have hj := j.isLt
  have he : ((cfg1.win 4).blk t).view.emb (ix2 p j) = ix2 (⟨t.val * 10000 + p.val, by omega⟩ : Fin 100000) j := by
    funext a; apply Fin.ext
    match a with
    | ⟨0, _⟩ => show win1_4.index t (0 : Fin 2) * 10000 + 1 * p.val = t.val * 10000 + p.val; omega
    | ⟨1, _⟩ => show win1_4.index t (1 : Fin 2) * 40 + 1 * j.val = j.val; omega
  have hX : ∀ k : Fin 16, iblk1 V c 0 t (ix2 p k) = V c main_v82 (ix2 (⟨t.val * 10000 + p.val, by omega⟩ : Fin 100000) k) := fun k => by
    show V c main_v82 (((cfg1.win 0).blk t).view.emb (ix2 p k)) = _
    refine congrArg (V c main_v82) (funext fun a => Fin.ext ?_)
    have hk := k.isLt
    match a with
    | ⟨0, _⟩ => show win1_0.index t (0 : Fin 2) * 10000 + 1 * p.val = t.val * 10000 + p.val; omega
    | ⟨1, _⟩ => show win1_0.index t (1 : Fin 2) * 16 + 1 * k.val = k.val; omega
  have hD : iblk1 V c 1 t (ix2 p (0 : Fin 1)) = V c main_v4 (ix2 (⟨t.val * 10000 + p.val, by omega⟩ : Fin 100000) (0 : Fin 1)) := by
    show V c main_v4 (((cfg1.win 1).blk t).view.emb (ix2 p (0 : Fin 1))) = _
    refine congrArg (V c main_v4) (funext fun a => Fin.ext ?_)
    match a with
    | ⟨0, _⟩ => show win1_1.index t (0 : Fin 2) * 10000 + 1 * p.val = t.val * 10000 + p.val; omega
    | ⟨1, _⟩ => show win1_1.index t (1 : Fin 2) * 1 + 1 * 0 = 0; omega
  have hW : ∀ (k : Fin 16) (j' : Fin 40), iblk1 V c 2 t (ix2 k j') = V c main_arg6 (ix2 k j') := fun k j' => by
    show V c main_arg6 (((cfg1.win 2).blk t).view.emb (ix2 k j')) = _
    refine congrArg (V c main_arg6) (funext fun a => Fin.ext ?_)
    have hk := k.isLt
    have hj' := j'.isLt
    match a with
    | ⟨0, _⟩ => show win1_2.index t (0 : Fin 2) * 16 + 1 * k.val = k.val; omega
    | ⟨1, _⟩ => show win1_2.index t (1 : Fin 2) * 40 + 1 * j'.val = j'.val; omega
  have hB : ∀ j' : Fin 40, iblk1 V c 3 t (ix2 (0 : Fin 1) j') = V c main_v83 (ix2 (0 : Fin 1) j') := fun j' => by
    show V c main_v83 (((cfg1.win 3).blk t).view.emb (ix2 (0 : Fin 1) j')) = _
    refine congrArg (V c main_v83) (funext fun a => Fin.ext ?_)
    have hj' := j'.isLt
    match a with
    | ⟨0, _⟩ => show win1_3.index t (0 : Fin 2) * 1 + 1 * 0 = 0; omega
    | ⟨1, _⟩ => show win1_3.index t (1 : Fin 2) * 40 + 1 * j'.val = j'.val; omega
  refine (pay2_apply (iblk1 V c 1 t) (iblk1 V c 0 t) (iblk1 V c 2 t) (iblk1 V c 3 t) p j).trans ?_
  refine Eq.trans ?_ (congrArg (logSoftmaxLayer (V c main_v82) (V c main_v4) (V c main_arg6) (V c main_v83)) he).symm
  rw [logSoftmaxLayer_ix2]
  exact congrArg (fun f => logSoftmaxRow f j) (funext fun j' => preact_congr _ _ _ _ _ _ _ _ p _ j' j' hX hD (fun k => hW k j') (hB j'))

/-- An index of the output array is in point `t`'s block iff each coordinate is in the block's range on its axis. -/
theorem mem_blk1 (t : Fin cfg1.N) (i : S100000x40.Idx) :
    i ∈ ((cfg1.win 4).blk t).view.set ↔ ∀ a : Fin 2, win1_4.index t a * S10000x40.size a ≤ (i a).val ∧ (i a).val < win1_4.index t a * S10000x40.size a + S10000x40.size a := by
  show i ∈ ((View.whole main_v84).slice (win1_4.rect t)).set ↔ _
  rw [View.set_slice_whole, Rect.mem_set_unit]
  exact Iff.rfl

/-- The output's blocks tile its array: row `r` is in the block of point `r / 10000`. -/
theorem cover1 (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  have hN : (i 0).val / 10000 < cfg1.N := lt_of_lt_of_eq (by omega : (i 0).val / 10000 < 10) N_1.symm
  refine ⟨⟨(i 0).val / 10000, hN⟩, flush1_4 _, ?_⟩
  rw [mem_blk1]
  obtain ⟨e0, e1, e2, e3, e4, e5, e6, e7, e8, e9⟩ := idx_facts1 ⟨(i 0).val / 10000, hN⟩
  intro a
  match a with
  | ⟨0, _⟩ =>
    show win1_4.index ⟨(i 0).val / 10000, hN⟩ (0 : Fin 2) * 10000 ≤ (i 0).val ∧ (i 0).val < win1_4.index ⟨(i 0).val / 10000, hN⟩ (0 : Fin 2) * 10000 + 10000
    rw [e8]; show (i 0).val / 10000 * 10000 ≤ (i 0).val ∧ (i 0).val < (i 0).val / 10000 * 10000 + 10000; omega
  | ⟨1, _⟩ =>
    show win1_4.index ⟨(i 0).val / 10000, hN⟩ (1 : Fin 2) * 40 ≤ (i 1).val ∧ (i 1).val < win1_4.index ⟨(i 0).val / 10000, hN⟩ (1 : Fin 2) * 40 + 40
    rw [e9]; omega

/-- The output array after the region: the layer function of the arrays the region was entered with. -/
theorem array1_eq (c : Dev nD) :
    (dat1 V c).arrAt 4 cfg1.N = logSoftmaxLayer (V c main_v82) (V c main_v4) (V c main_arg6) (V c main_v83) :=
  (dat1 V c).arrAt_eq_of_cover 4 _ (fun t _ => flushed1_eq V c t) (cover1)

end Cert.KernelIdeal.Layers

end
-- ==== Proof.HostGlue.lean ====
/-
  The host side of the idealized kernel program, between the launch memory and each pallas_call.

  Before the first call the host computes, from the launch arrays, the node degrees (a scatter-add of ones), the summed
  features of layer 1 (gather, weight, scatter-add to hyperedges, divide by the floored hyperedge weight, gather back,
  scatter-add to nodes) and the bias as a row; between the calls it computes the same summed features from the first
  call's output. These are the very operations the reference program applies, in the same order, so each buffer a call
  reads holds the reference's own stage function of the launch arrays: the chains are compared as whole terms and never
  opened. With the two layer laws of the reference (`h1`, `h2`: its stages 58 and 117 are the relu and the log-softmax
  layer of its stages 44 / 103, its degrees and its bias rows) the program's result buffer ends holding the reference's
  result function of the launch arrays.
-/
import proofs.«180286_j58042188038707_1_alg».proof.Proof.Gen.KernelIdeal.Frame
import proofs.«180286_j58042188038707_1_alg».proof.Proof.RefReadPatched
import proofs.«180286_j58042188038707_1_alg».proof.Proof.KernelArrays
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem Cert.HyperConv Idealize.ShloMosaic.StableHlo Cert.ReferenceIdeal.ReadP
open Idealize.ShloMosaic.Pipeline (Dat Cfg Window)

variable (m : (ℓ : Loc nD τ sig) → Buf (Elt Ideal) ℓ) (ρ : Dev nD → PrngReg)

/-- The launch arrays on core `c`. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)

/-- The degrees as a column: what both calls read through their second window. -/
abbrev degCol (g : (⟨Cert.ReferenceIdeal.S100000, .f32⟩ : BufTy).Contents (Elt Ideal)) :
    (⟨Cert.ReferenceIdeal.S100000x1, .f32⟩ : BufTy).Contents (Elt Ideal) :=
  broadcastInDim Cert.ReferenceIdeal.S100000x1 ![0] Cert.ReferenceIdeal.Gen.bcast_S100000_S100000x1_0 g

/-- The reference's first layer law: its stage 58 is the relu layer of its summed features, its degrees and its bias row. -/
def Layer1Law : Prop := ∀ (x0 : (⟨Cert.ReferenceIdeal.S100000x256, .f32⟩ : BufTy).Contents (Elt Ideal)) (x1 : (⟨Cert.ReferenceIdeal.S100000, .f32⟩ : BufTy).Contents (Elt Ideal)) (x2 x3 : (⟨Cert.ReferenceIdeal.S800000, .i32⟩ : BufTy).Contents (Elt Ideal)) (x4 : (⟨Cert.ReferenceIdeal.S256x16, .f32⟩ : BufTy).Contents (Elt Ideal)) (x5 : (⟨Cert.ReferenceIdeal.S16, .f32⟩ : BufTy).Contents (Elt Ideal)),
  val_main_v58 (F := Ideal) x0 x1 x2 x3 x4 x5
    = reluLayer (val_main_v44 (F := Ideal) x0 x1 x2 x3) (degCol (val_main_v48 (F := Ideal) x2)) x4 (val_main_v55 (F := Ideal) x5)

/-- The reference's second layer law: its result is the log-softmax layer of its second summed features. -/
def Layer2Law : Prop := ∀ (x0 : (⟨Cert.ReferenceIdeal.S100000x256, .f32⟩ : BufTy).Contents (Elt Ideal)) (x1 : (⟨Cert.ReferenceIdeal.S100000, .f32⟩ : BufTy).Contents (Elt Ideal)) (x2 x3 : (⟨Cert.ReferenceIdeal.S800000, .i32⟩ : BufTy).Contents (Elt Ideal)) (x4 : (⟨Cert.ReferenceIdeal.S256x16, .f32⟩ : BufTy).Contents (Elt Ideal)) (x5 : (⟨Cert.ReferenceIdeal.S16, .f32⟩ : BufTy).Contents (Elt Ideal)) (x6 : (⟨Cert.ReferenceIdeal.S16x40, .f32⟩ : BufTy).Contents (Elt Ideal)) (x7 : (⟨Cert.ReferenceIdeal.S40, .f32⟩ : BufTy).Contents (Elt Ideal)),
  val_main_v117 (F := Ideal) x0 x1 x2 x3 x4 x5 x6 x7
    = logSoftmaxLayer (val_main_v103 (F := Ideal) x0 x1 x2 x3 x4 x5) (degCol (val_main_v107 (F := Ideal) x2)) x6 (val_main_v114 (F := Ideal) x7)

theorem reluLayer_congr {n d h : Nat} {X X' : (⟨2, ![n, d]⟩ : Shape).Idx → EReal} {D D' : (⟨2, ![n, 1]⟩ : Shape).Idx → EReal}
    {W W' : (⟨2, ![d, h]⟩ : Shape).Idx → EReal} {B B' : (⟨2, ![1, h]⟩ : Shape).Idx → EReal}
    (hX : X = X') (hD : D = D') (hW : W = W') (hB : B = B') : reluLayer X D W B = reluLayer X' D' W' B' := by
  subst hX hD hW hB; rfl

theorem logSoftmaxLayer_congr {n d h : Nat} {X X' : (⟨2, ![n, d]⟩ : Shape).Idx → EReal} {D D' : (⟨2, ![n, 1]⟩ : Shape).Idx → EReal}
    {W W' : (⟨2, ![d, h]⟩ : Shape).Idx → EReal} {B B' : (⟨2, ![1, h]⟩ : Shape).Idx → EReal}
    (hX : X = X') (hD : D = D') (hW : W = W') (hB : B = B') : logSoftmaxLayer X D W B = logSoftmaxLayer X' D' W' B' := by
  subst hX hD hW hB; rfl

/-! ## Before the first call: what its four input windows' arrays hold -/

set_option maxHeartbeats 4000000 in
/-- The summed features of layer 1. -/
theorem entry0_X (c : Dev nD) : V1 m ρ c main_v42 = val_main_v44 (F := Ideal) (A0 m c) (A1 m c) (A2 m c) (A3 m c) := by
  show StableHlo.after hostOps0 (W0 m ρ c) (Proc.devRef .tc main_v42) = _
  after_results_simp <;> rfl

set_option maxHeartbeats 4000000 in
/-- The degrees, as a column. -/
theorem entry0_D (c : Dev nD) : V1 m ρ c main_v4 = degCol (val_main_v48 (F := Ideal) (A2 m c)) := by
  show StableHlo.after hostOps0 (W0 m ρ c) (Proc.devRef .tc main_v4) = _
  after_results_simp <;> rfl

set_option maxHeartbeats 4000000 in
/-- The first weight matrix, untouched. -/
theorem entry0_W (c : Dev nD) : V1 m ρ c main_arg4 = A4 m c := by
  show StableHlo.after hostOps0 (W0 m ρ c) (Proc.devRef .tc main_arg4) = _
  after_results_simp <;> rfl

set_option maxHeartbeats 4000000 in
/-- The first bias, as a row. -/
theorem entry0_B (c : Dev nD) : V1 m ρ c main_v43 = val_main_v55 (F := Ideal) (A5 m c) := by
  show StableHlo.after hostOps0 (W0 m ρ c) (Proc.devRef .tc main_v43) = _
  after_results_simp <;> rfl

set_option maxHeartbeats 4000000 in
theorem entry0_arg1 (c : Dev nD) : W1 m ρ c (Proc.devRef .tc main_arg1) = A1 m c := by
  show StableHlo.after hostOps0 (W0 m ρ c) (Proc.devRef .tc main_arg1) = _
  after_results_simp <;> rfl
set_option maxHeartbeats 4000000 in
theorem entry0_arg2 (c : Dev nD) : W1 m ρ c (Proc.devRef .tc main_arg2) = A2 m c := by
  show StableHlo.after hostOps0 (W0 m ρ c) (Proc.devRef .tc main_arg2) = _
  after_results_simp <;> rfl
set_option maxHeartbeats 4000000 in
theorem entry0_arg3 (c : Dev nD) : W1 m ρ c (Proc.devRef .tc main_arg3) = A3 m c := by
  show StableHlo.after hostOps0 (W0 m ρ c) (Proc.devRef .tc main_arg3) = _
  after_results_simp <;> rfl
set_option maxHeartbeats 4000000 in
theorem entry0_arg6 (c : Dev nD) : W1 m ρ c (Proc.devRef .tc main_arg6) = A6 m c := by
  show StableHlo.after hostOps0 (W0 m ρ c) (Proc.devRef .tc main_arg6) = _
  after_results_simp <;> rfl
set_option maxHeartbeats 4000000 in
theorem entry0_arg7 (c : Dev nD) : W1 m ρ c (Proc.devRef .tc main_arg7) = A7 m c := by
  show StableHlo.after hostOps0 (W0 m ρ c) (Proc.devRef .tc main_arg7) = _
  after_results_simp <;> rfl

/-! ## After the first call -/

/-- The first call's output array: layer 1 of the reference, of the launch arrays. -/
theorem exit0_out (h1 : Layer1Law) (c : Dev nD) :
    W2 m ρ c (Proc.devRef .tc main_v44) = val_main_v58 (F := Ideal) (A0 m c) (A1 m c) (A2 m c) (A3 m c) (A4 m c) (A5 m c) :=
  (W2_arr m ρ c 4).trans ((array0_eq (V1 m ρ) c).trans
    ((reluLayer_congr (entry0_X m ρ c) (entry0_D m ρ c) (entry0_W m ρ c) (entry0_B m ρ c)).trans (h1 _ _ _ _ _ _).symm))

/-- The degree column is an input of the first call: it leaves it as it found it. -/
theorem exit0_D (c : Dev nD) : W2 m ρ c (Proc.devRef .tc main_v4) = degCol (val_main_v48 (F := Ideal) (A2 m c)) :=
  (W2_arr m ρ c 1).trans (((dat0 (V1 m ρ) c).arrAt_in 1 rfl _).trans ((A_eq0 (V1 m ρ) c 1).trans (entry0_D m ρ c)))

theorem exit0_arg1 (c : Dev nD) : W2 m ρ c (Proc.devRef .tc main_arg1) = A1 m c :=
  (W2_of_ne m ρ c main_arg1 (by decide)).trans (entry0_arg1 m ρ c)
theorem exit0_arg2 (c : Dev nD) : W2 m ρ c (Proc.devRef .tc main_arg2) = A2 m c :=
  (W2_of_ne m ρ c main_arg2 (by decide)).trans (entry0_arg2 m ρ c)
theorem exit0_arg3 (c : Dev nD) : W2 m ρ c (Proc.devRef .tc main_arg3) = A3 m c :=
  (W2_of_ne m ρ c main_arg3 (by decide)).trans (entry0_arg3 m ρ c)
theorem exit0_arg6 (c : Dev nD) : W2 m ρ c (Proc.devRef .tc main_arg6) = A6 m c :=
  (W2_of_ne m ρ c main_arg6 (by decide)).trans (entry0_arg6 m ρ c)
theorem exit0_arg7 (c : Dev nD) : W2 m ρ c (Proc.devRef .tc main_arg7) = A7 m c :=
  (W2_of_ne m ρ c main_arg7 (by decide)).trans (entry0_arg7 m ρ c)

/-! ## Before the second call -/

set_option maxHeartbeats 4000000 in
/-- The summed features of layer 2: the same averaging, of the first call's output. -/
theorem entry1_X (h1 : Layer1Law) (c : Dev nD) : V3 m ρ c main_v82 = val_main_v103 (F := Ideal) (A0 m c) (A1 m c) (A2 m c) (A3 m c) (A4 m c) (A5 m c) := by
  show StableHlo.after hostOps1 (W2 m ρ c) (Proc.devRef .tc main_v82) = _
  after_results_simp
  rw [exit0_out m ρ h1 c, exit0_arg1 m ρ c, exit0_arg2 m ρ c, exit0_arg3 m ρ c]
  rfl

set_option maxHeartbeats 4000000 in
/-- The degree column again (the reference recomputes it: the same term). -/
theorem entry1_D (c : Dev nD) : V3 m ρ c main_v4 = degCol (val_main_v107 (F := Ideal) (A2 m c)) := by
  show StableHlo.after hostOps1 (W2 m ρ c) (Proc.devRef .tc main_v4) = _
  after_results_simp
  exact exit0_D m ρ c

set_option maxHeartbeats 4000000 in
theorem entry1_W (c : Dev nD) : V3 m ρ c main_arg6 = A6 m c := by
  show StableHlo.after hostOps1 (W2 m ρ c) (Proc.devRef .tc main_arg6) = _
  after_results_simp
  exact exit0_arg6 m ρ c

set_option maxHeartbeats 4000000 in
theorem entry1_B (c : Dev nD) : V3 m ρ c main_v83 = val_main_v114 (F := Ideal) (A7 m c) := by
  show StableHlo.after hostOps1 (W2 m ρ c) (Proc.devRef .tc main_v83) = _
  after_results_simp
  rw [exit0_arg7 m ρ c]
  rfl

/-! ## After the second call: the result -/

/-- The program's result buffer ends holding the reference's result function of the launch arrays. -/
theorem result_eq (h1 : Layer1Law) (h2 : Layer2Law) (c : Dev nD) :
    W4 m ρ c (Proc.devRef .tc main_v84) = val_main_v117 (F := Ideal) (A0 m c) (A1 m c) (A2 m c) (A3 m c) (A4 m c) (A5 m c) (A6 m c) (A7 m c) :=
  (W4_arr m ρ c 4).trans ((array1_eq (V3 m ρ) c).trans
    ((logSoftmaxLayer_congr (entry1_X m ρ h1 c) (entry1_D m ρ c) (entry1_W m ρ c) (entry1_B m ρ c)).trans (h2 _ _ _ _ _ _ _ _).symm))

end Cert.KernelIdeal.Layers

end
-- ==== Proof.RefRunOps.lean ====
/-
  The reference program's 164 host operations in five stretches, and the fact that none of them writes an argument array.

  The list is cut where the mathematics cuts it:
    A  operations   1 –  57: node → hyperedge → node averaging of the input features, up to the summed features of layer 1;
    B  operations  58 –  76: the node degrees, the division, the product with the first weight matrix, the bias, the relu;
    C  operations  77 – 133: the same averaging applied to layer 1's output, up to the summed features of layer 2;
    D1 operations 134 – 149: degrees, division, the second product, the bias: the logits;
    D2 operations 150 – 164: the row-wise log-softmax of the logits.
  The fold of a line of operations over an appended list is the fold of the second part over the fold of the first, so the
  program's fold is the five stretches' folds composed. Every operation writes its own result buffer only; so each argument
  array is, after any stretch, what it was before it.
-/
import proofs.«180286_j58042188038707_1_alg».proof.Proof.RefRunPatched
import proofs.«180286_j58042188038707_1_alg».proof.Proof.RefReadPatched

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold of a line of host operations over an appended list is the fold of the second part over the fold of the first. -/
theorem after_append (l1 l2 : List (HloOp τ sig (Elt Ideal))) (V : Valuation τ sig (Elt Ideal)) :
    after (l1 ++ l2) V = after l2 (after l1 V) := by
  induction l1 generalizing V with
  | nil => rfl
  | cons op l ih => simp only [List.cons_append, after_cons, ih]

/-- A typed reference's contents carried to its buffer's type and back are the contents: the two transports along the
    reference's type equation cancel. -/
theorem ofBuf_toBuf {T : BufTy} (x : TRef sig T) (v : T.Contents (Elt Ideal)) : x.ofBuf (x.toBuf v) = v := by
  obtain ⟨r, h, h2, h3⟩ := x
  subst h
  rfl

/-! ## The five stretches of the operation list -/

abbrev opsA : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_c_1 (constantI S_ 32 0#32),
    unary main_c_1 main_v7 (broadcastInDim S800000 ![] bcast_S_S800000 : (⟨S_, .i32⟩ : BufTy).Contents (Elt F) → (⟨S800000, .i32⟩ : BufTy).Contents (Elt F)),
    binary main_arg2 main_v7 main_v8 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v9 (broadcastInDim S800000 ![] bcast_S_S800000 : (⟨S_, .i32⟩ : BufTy).Contents (Elt F) → (⟨S800000, .i32⟩ : BufTy).Contents (Elt F)),
    binary main_arg2 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg2 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg1 main_v12 main_v13 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    unary main_v13 main_v14 (broadcastInDim S800000x1 ![0] bcast_S800000_S800000x1_0 : (⟨S800000, .f32⟩ : BufTy).Contents (Elt F) → (⟨S800000x1, .f32⟩ : BufTy).Contents (Elt F)),
    unary main_v14 main_v15 (broadcastInDim S800000x256 ![0, 1] bcast_S800000x1_S800000x256_0_1 : (⟨S800000x1, .f32⟩ : BufTy).Contents (Elt F) → (⟨S800000x256, .f32⟩ : BufTy).Contents (Elt F)),
    binary main_v6 main_v15 main_v16 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v17 (broadcastInDim S20000x256 ![] bcast_S_S20000x256 : (⟨S_, .f32⟩ : BufTy).Contents (Elt F) → (⟨S20000x256, .f32⟩ : BufTy).Contents (Elt F)),
    unary main_arg3 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S20000x256_S800000x1_S800000x256_1_0_0_1 x i u) : (⟨S20000x256, .f32⟩ : BufTy).Contents (Elt F) → (⟨S800000x1, .i32⟩ : BufTy).Contents (Elt F) → (⟨S800000x256, .f32⟩ : BufTy).Contents (Elt F) → (⟨S20000x256, .f32⟩ : BufTy).Contents (Elt F)),
    nullary main_c_3 (constantI S_ 32 0#32),
    unary main_c_3 main_v20 (broadcastInDim S800000 ![] bcast_S_S800000 : (⟨S_, .i32⟩ : BufTy).Contents (Elt F) → (⟨S800000, .i32⟩ : BufTy).Contents (Elt F)),
    binary main_arg2 main_v20 main_v21 (cmpi .slt : (⟨S800000, .i32⟩ : BufTy).Contents (Elt F) → (⟨S800000, .i32⟩ : BufTy).Contents (Elt F) → (⟨S800000, .i1⟩ : BufTy).Contents (Elt F)),
    nullary main_c_4 (constantI S_ 32 100000#32),
    unary main_c_4 main_v22 (broadcastInDim S800000 ![] bcast_S_S800000 : (⟨S_, .i32⟩ : BufTy).Contents (Elt F) → (⟨S800000, .i32⟩ : BufTy).Contents (Elt F)),
    binary main_arg2 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_arg2 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_arg1 main_v25 main_v26 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_cst_5 (constant S_ .f32 0x00000000#32),
    unary main_cst_5 main_v27 (broadcastInDim S20000 ![] bcast_S_S20000 : (⟨S_, .f32⟩ : BufTy).Contents (Elt F) → (⟨S20000, .f32⟩ : BufTy).Contents (Elt F)),
    unary main_arg3 main_v28 (broadcastInDim S800000x1 ![0] bcast_S800000_S800000x1_0 : (⟨S800000, .i32⟩ : BufTy).Contents (Elt F) → (⟨S800000x1, .i32⟩ : BufTy).Contents (Elt F)),
    ternary main_v27 main_v28 main_v26 main_v29 ((fun x i u => Host.scatterAdd scatter_S20000_S800000x1_S800000_n_0_0_1 x i u) : (⟨S20000, .f32⟩ : BufTy).Contents (Elt F) → (⟨S800000x1, .i32⟩ : BufTy).Contents (Elt F) → (⟨S800000, .f32⟩ : BufTy).Contents (Elt F) → (⟨S20000, .f32⟩ : BufTy).Contents (Elt F)),
    nullary main_cst_6 (constant S_ .f32 0x358637BD#32),
    unary main_cst_6 main_v30 (broadcastInDim S20000 ![] bcast_S_S20000 : (⟨S_, .f32⟩ : BufTy).Contents (Elt F) → (⟨S20000, .f32⟩ : BufTy).Contents (Elt F)),
    binary main_v29 main_v30 main_v31 (maximumf : (⟨S20000, .f32⟩ : BufTy).Contents (Elt F) → (⟨S20000, .f32⟩ : BufTy).Contents (Elt F) → (⟨S20000, .f32⟩ : BufTy).Contents (Elt F)),
    unary main_v31 main_v32 (broadcastInDim S20000x1 ![0] bcast_S20000_S20000x1_0 : (⟨S20000, .f32⟩ : BufTy).Contents (Elt F) → (⟨S20000x1, .f32⟩ : BufTy).Contents (Elt F)),
    unary main_v32 main_v33 (broadcastInDim S20000x256 ![0, 1] bcast_S20000x1_S20000x256_0_1 : (⟨S20000x1, .f32⟩ : BufTy).Contents (Elt F) → (⟨S20000x256, .f32⟩ : BufTy).Contents (Elt F)),
    binary main_v19 main_v33 main_v34 (Host.divf : (⟨S20000x256, .f32⟩ : BufTy).Contents (Elt F) → (⟨S20000x256, .f32⟩ : BufTy).Contents (Elt F) → (⟨S20000x256, .f32⟩ : BufTy).Contents (Elt F)),
    nullary main_c_7 (constantI S_ 32 0#32),
    unary main_c_7 main_v35 (broadcastInDim S800000 ![] bcast_S_S800000 : (⟨S_, .i32⟩ : BufTy).Contents (Elt F) → (⟨S800000, .i32⟩ : BufTy).Contents (Elt F)),
    binary main_arg3 main_v35 main_v36 (cmpi .slt : (⟨S800000, .i32⟩ : BufTy).Contents (Elt F) → (⟨S800000, .i32⟩ : BufTy).Contents (Elt F) → (⟨S800000, .i1⟩ : BufTy).Contents (Elt F)),
    nullary main_c_8 (constantI S_ 32 20000#32),
    unary main_c_8 main_v37 (broadcastInDim S800000 ![] bcast_S_S800000 : (⟨S_, .i32⟩ : BufTy).Contents (Elt F) → (⟨S800000, .i32⟩ : BufTy).Contents (Elt F)),
    binary main_arg3 main_v37 main_v38 (addi : (⟨S800000, .i32⟩ : BufTy).Contents (Elt F) → (⟨S800000, .i32⟩ : BufTy).Contents (Elt F) → (⟨S800000, .i32⟩ : BufTy).Contents (Elt F)),
    ternary main_v36 main_v38 main_arg3 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v39 main_v40 (broadcastInDim S800000x1 ![0] bcast_S800000_S800000x1_0 : (⟨S800000, .i32⟩ : BufTy).Contents (Elt F) → (⟨S800000x1, .i32⟩ : BufTy).Contents (Elt F)),
    binary main_v34 main_v40 main_v41 ((fun x i => Host.gather gather_S20000x256_S800000x1_S800000x256_1_0_n_n_0_1_1256 x i) : (⟨S20000x256, .f32⟩ : BufTy).Contents (Elt F) → (⟨S800000x1, .i32⟩ : BufTy).Contents (Elt F) → (⟨S800000x256, .f32⟩ : BufTy).Contents (Elt F)),
    nullary main_cst_9 (constant S_ .f32 0x00000000#32),
    unary main_cst_9 main_v42 (broadcastInDim S100000x256 ![] bcast_S_S100000x256 : (⟨S_, .f32⟩ : BufTy).Contents (Elt F) → (⟨S100000x256, .f32⟩ : BufTy).Contents (Elt F)),
    unary main_arg2 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)) ]

abbrev opsB : List (HloOp τ sig (Elt F)) :=
  [ nullary main_cst_10 (constant S_ .f32 0x3F800000#32),
    unary main_cst_10 main_v45 (broadcastInDim S800000 ![] bcast_S_S800000 : (⟨S_, .f32⟩ : BufTy).Contents (Elt F) → (⟨S800000, .f32⟩ : BufTy).Contents (Elt F)),
    nullary main_cst_11 (constant S_ .f32 0x00000000#32),
    unary main_cst_11 main_v46 (broadcastInDim S100000 ![] bcast_S_S100000 : (⟨S_, .f32⟩ : BufTy).Contents (Elt F) → (⟨S100000, .f32⟩ : BufTy).Contents (Elt F)),
    unary main_arg2 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_12 (constant S_ .f32 0x3F800000#32),
    unary main_cst_12 main_v49 (broadcastInDim S100000 ![] bcast_S_S100000 : (⟨S_, .f32⟩ : BufTy).Contents (Elt F) → (⟨S100000, .f32⟩ : BufTy).Contents (Elt F)),
    binary main_v48 main_v49 main_v50 (maximumf : (⟨S100000, .f32⟩ : BufTy).Contents (Elt F) → (⟨S100000, .f32⟩ : BufTy).Contents (Elt F) → (⟨S100000, .f32⟩ : BufTy).Contents (Elt F)),
    unary main_v50 main_v51 (broadcastInDim S100000x1 ![0] bcast_S100000_S100000x1_0 : (⟨S100000, .f32⟩ : BufTy).Contents (Elt F) → (⟨S100000x1, .f32⟩ : BufTy).Contents (Elt F)),
    unary main_v51 main_v52 (broadcastInDim S100000x256 ![0, 1] bcast_S100000x1_S100000x256_0_1 : (⟨S100000x1, .f32⟩ : BufTy).Contents (Elt F) → (⟨S100000x256, .f32⟩ : BufTy).Contents (Elt F)),
    binary main_v44 main_v52 main_v53 (Host.divf : (⟨S100000x256, .f32⟩ : BufTy).Contents (Elt F) → (⟨S100000x256, .f32⟩ : BufTy).Contents (Elt F) → (⟨S100000x256, .f32⟩ : BufTy).Contents (Elt F)),
    binary main_v53 main_arg4 main_v54 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    unary main_arg5 main_v55 (broadcastInDim S1x16 ![1] bcast_S16_S1x16_1 : (⟨S16, .f32⟩ : BufTy).Contents (Elt F) → (⟨S1x16, .f32⟩ : BufTy).Contents (Elt F)),
    unary main_v55 main_v56 (broadcastInDim S100000x16 ![0, 1] bcast_S1x16_S100000x16_0_1 : (⟨S1x16, .f32⟩ : BufTy).Contents (Elt F) → (⟨S100000x16, .f32⟩ : BufTy).Contents (Elt F)),
    binary main_v54 main_v56 main_v57 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v57) (TRef.of (T := ⟨S100000x16, .f32⟩) main_call0_v0) (TRef.of (T := ⟨S100000x16, .f32⟩) main_v58) maximumf ]

abbrev opsC : List (HloOp τ sig (Elt F)) :=
  [ nullary main_c_13 (constantI S_ 32 0#32),
    unary main_c_13 main_v59 (broadcastInDim S800000 ![] bcast_S_S800000 : (⟨S_, .i32⟩ : BufTy).Contents (Elt F) → (⟨S800000, .i32⟩ : BufTy).Contents (Elt F)),
    binary main_arg2 main_v59 main_v60 (cmpi .slt : (⟨S800000, .i32⟩ : BufTy).Contents (Elt F) → (⟨S800000, .i32⟩ : BufTy).Contents (Elt F) → (⟨S800000, .i1⟩ : BufTy).Contents (Elt F)),
    nullary main_c_14 (constantI S_ 32 100000#32),
    unary main_c_14 main_v61 (broadcastInDim S800000 ![] bcast_S_S800000 : (⟨S_, .i32⟩ : BufTy).Contents (Elt F) → (⟨S800000, .i32⟩ : BufTy).Contents (Elt F)),
    binary main_arg2 main_v61 main_v62 (addi : (⟨S800000, .i32⟩ : BufTy).Contents (Elt F) → (⟨S800000, .i32⟩ : BufTy).Contents (Elt F) → (⟨S800000, .i32⟩ : BufTy).Contents (Elt F)),
    ternary main_v60 main_v62 main_arg2 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v63 main_v64 (broadcastInDim S800000x1 ![0] bcast_S800000_S800000x1_0 : (⟨S800000, .i32⟩ : BufTy).Contents (Elt F) → (⟨S800000x1, .i32⟩ : BufTy).Contents (Elt F)),
    binary main_v58 main_v64 main_v65 ((fun x i => Host.gather gather_S100000x16_S800000x1_S800000x16_1_0_n_n_0_1_116 x i) : (⟨S100000x16, .f32⟩ : BufTy).Contents (Elt F) → (⟨S800000x1, .i32⟩ : BufTy).Contents (Elt F) → (⟨S800000x16, .f32⟩ : BufTy).Contents (Elt F)),
    nullary main_c_15 (constantI S_ 32 0#32),
    unary main_c_15 main_v66 (broadcastInDim S800000 ![] bcast_S_S800000 : (⟨S_, .i32⟩ : BufTy).Contents (Elt F) → (⟨S800000, .i32⟩ : BufTy).Contents (Elt F)),
    binary main_arg2 main_v66 main_v67 (cmpi .slt : (⟨S800000, .i32⟩ : BufTy).Contents (Elt F) → (⟨S800000, .i32⟩ : BufTy).Contents (Elt F) → (⟨S800000, .i1⟩ : BufTy).Contents (Elt F)),
    nullary main_c_16 (constantI S_ 32 100000#32),
    unary main_c_16 main_v68 (broadcastInDim S800000 ![] bcast_S_S800000 : (⟨S_, .i32⟩ : BufTy).Contents (Elt F) → (⟨S800000, .i32⟩ : BufTy).Contents (Elt F)),
    binary main_arg2 main_v68 main_v69 (addi : (⟨S800000, .i32⟩ : BufTy).Contents (Elt F) → (⟨S800000, .i32⟩ : BufTy).Contents (Elt F) → (⟨S800000, .i32⟩ : BufTy).Contents (Elt F)),
    ternary main_v67 main_v69 main_arg2 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v70 main_v71 (broadcastInDim S800000x1 ![0] bcast_S800000_S800000x1_0 : (⟨S800000, .i32⟩ : BufTy).Contents (Elt F) → (⟨S800000x1, .i32⟩ : BufTy).Contents (Elt F)),
    binary main_arg1 main_v71 main_v72 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    unary main_v72 main_v73 (broadcastInDim S800000x1 ![0] bcast_S800000_S800000x1_0 : (⟨S800000, .f32⟩ : BufTy).Contents (Elt F) → (⟨S800000x1, .f32⟩ : BufTy).Contents (Elt F)),
    unary main_v73 main_v74 (broadcastInDim S800000x16 ![0, 1] bcast_S800000x1_S800000x16_0_1 : (⟨S800000x1, .f32⟩ : BufTy).Contents (Elt F) → (⟨S800000x16, .f32⟩ : BufTy).Contents (Elt F)),
    binary main_v65 main_v74 main_v75 (mulf : (⟨S800000x16, .f32⟩ : BufTy).Contents (Elt F) → (⟨S800000x16, .f32⟩ : BufTy).Contents (Elt F) → (⟨S800000x16, .f32⟩ : BufTy).Contents (Elt F)),
    nullary main_cst_17 (constant S_ .f32 0x00000000#32),
    unary main_cst_17 main_v76 (broadcastInDim S20000x16 ![] bcast_S_S20000x16 : (⟨S_, .f32⟩ : BufTy).Contents (Elt F) → (⟨S20000x16, .f32⟩ : BufTy).Contents (Elt F)),
    unary main_arg3 main_v77 (broadcastInDim S800000x1 ![0] bcast_S800000_S800000x1_0 : (⟨S800000, .i32⟩ : BufTy).Contents (Elt F) → (⟨S800000x1, .i32⟩ : BufTy).Contents (Elt F)),
    ternary main_v76 main_v77 main_v75 main_v78 ((fun x i u => Host.scatterAdd scatter_S20000x16_S800000x1_S800000x16_1_0_0_1 x i u) : (⟨S20000x16, .f32⟩ : BufTy).Contents (Elt F) → (⟨S800000x1, .i32⟩ : BufTy).Contents (Elt F) → (⟨S800000x16, .f32⟩ : BufTy).Contents (Elt F) → (⟨S20000x16, .f32⟩ : BufTy).Contents (Elt F)),
    nullary main_c_18 (constantI S_ 32 0#32),
    unary main_c_18 main_v79 (broadcastInDim S800000 ![] bcast_S_S800000 : (⟨S_, .i32⟩ : BufTy).Contents (Elt F) → (⟨S800000, .i32⟩ : BufTy).Contents (Elt F)),
    binary main_arg2 main_v79 main_v80 (cmpi .slt : (⟨S800000, .i32⟩ : BufTy).Contents (Elt F) → (⟨S800000, .i32⟩ : BufTy).Contents (Elt F) → (⟨S800000, .i1⟩ : BufTy).Contents (Elt F)),
    nullary main_c_19 (constantI S_ 32 100000#32),
    unary main_c_19 main_v81 (broadcastInDim S800000 ![] bcast_S_S800000 : (⟨S_, .i32⟩ : BufTy).Contents (Elt F) → (⟨S800000, .i32⟩ : BufTy).Contents (Elt F)),
    binary main_arg2 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_arg2 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_arg1 main_v84 main_v85 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_cst_20 (constant S_ .f32 0x00000000#32),
    unary main_cst_20 main_v86 (broadcastInDim S20000 ![] bcast_S_S20000 : (⟨S_, .f32⟩ : BufTy).Contents (Elt F) → (⟨S20000, .f32⟩ : BufTy).Contents (Elt F)),
    unary main_arg3 main_v87 (broadcastInDim S800000x1 ![0] bcast_S800000_S800000x1_0 : (⟨S800000, .i32⟩ : BufTy).Contents (Elt F) → (⟨S800000x1, .i32⟩ : BufTy).Contents (Elt F)),
    ternary main_v86 main_v87 main_v85 main_v88 ((fun x i u => Host.scatterAdd scatter_S20000_S800000x1_S800000_n_0_0_1 x i u) : (⟨S20000, .f32⟩ : BufTy).Contents (Elt F) → (⟨S800000x1, .i32⟩ : BufTy).Contents (Elt F) → (⟨S800000, .f32⟩ : BufTy).Contents (Elt F) → (⟨S20000, .f32⟩ : BufTy).Contents (Elt F)),
    nullary main_cst_21 (constant S_ .f32 0x358637BD#32),
    unary main_cst_21 main_v89 (broadcastInDim S20000 ![] bcast_S_S20000 : (⟨S_, .f32⟩ : BufTy).Contents (Elt F) → (⟨S20000, .f32⟩ : BufTy).Contents (Elt F)),
    binary main_v88 main_v89 main_v90 (maximumf : (⟨S20000, .f32⟩ : BufTy).Contents (Elt F) → (⟨S20000, .f32⟩ : BufTy).Contents (Elt F) → (⟨S20000, .f32⟩ : BufTy).Contents (Elt F)),
    unary main_v90 main_v91 (broadcastInDim S20000x1 ![0] bcast_S20000_S20000x1_0 : (⟨S20000, .f32⟩ : BufTy).Contents (Elt F) → (⟨S20000x1, .f32⟩ : BufTy).Contents (Elt F)),
    unary main_v91 main_v92 (broadcastInDim S20000x16 ![0, 1] bcast_S20000x1_S20000x16_0_1 : (⟨S20000x1, .f32⟩ : BufTy).Contents (Elt F) → (⟨S20000x16, .f32⟩ : BufTy).Contents (Elt F)),
    binary main_v78 main_v92 main_v93 (Host.divf : (⟨S20000x16, .f32⟩ : BufTy).Contents (Elt F) → (⟨S20000x16, .f32⟩ : BufTy).Contents (Elt F) → (⟨S20000x16, .f32⟩ : BufTy).Contents (Elt F)),
    nullary main_c_22 (constantI S_ 32 0#32),
    unary main_c_22 main_v94 (broadcastInDim S800000 ![] bcast_S_S800000 : (⟨S_, .i32⟩ : BufTy).Contents (Elt F) → (⟨S800000, .i32⟩ : BufTy).Contents (Elt F)),
    binary main_arg3 main_v94 main_v95 (cmpi .slt : (⟨S800000, .i32⟩ : BufTy).Contents (Elt F) → (⟨S800000, .i32⟩ : BufTy).Contents (Elt F) → (⟨S800000, .i1⟩ : BufTy).Contents (Elt F)),
    nullary main_c_23 (constantI S_ 32 20000#32),
    unary main_c_23 main_v96 (broadcastInDim S800000 ![] bcast_S_S800000 : (⟨S_, .i32⟩ : BufTy).Contents (Elt F) → (⟨S800000, .i32⟩ : BufTy).Contents (Elt F)),
    binary main_arg3 main_v96 main_v97 (addi : (⟨S800000, .i32⟩ : BufTy).Contents (Elt F) → (⟨S800000, .i32⟩ : BufTy).Contents (Elt F) → (⟨S800000, .i32⟩ : BufTy).Contents (Elt F)),
    ternary main_v95 main_v97 main_arg3 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v98 main_v99 (broadcastInDim S800000x1 ![0] bcast_S800000_S800000x1_0 : (⟨S800000, .i32⟩ : BufTy).Contents (Elt F) → (⟨S800000x1, .i32⟩ : BufTy).Contents (Elt F)),
    binary main_v93 main_v99 main_v100 ((fun x i => Host.gather gather_S20000x16_S800000x1_S800000x16_1_0_n_n_0_1_116 x i) : (⟨S20000x16, .f32⟩ : BufTy).Contents (Elt F) → (⟨S800000x1, .i32⟩ : BufTy).Contents (Elt F) → (⟨S800000x16, .f32⟩ : BufTy).Contents (Elt F)),
    nullary main_cst_24 (constant S_ .f32 0x00000000#32),
    unary main_cst_24 main_v101 (broadcastInDim S100000x16 ![] bcast_S_S100000x16 : (⟨S_, .f32⟩ : BufTy).Contents (Elt F) → (⟨S100000x16, .f32⟩ : BufTy).Contents (Elt F)),
    unary main_arg2 main_v102 (broadcastInDim S800000x1 ![0] bcast_S800000_S800000x1_0 : (⟨S800000, .i32⟩ : BufTy).Contents (Elt F) → (⟨S800000x1, .i32⟩ : BufTy).Contents (Elt F)),
    ternary main_v101 main_v102 main_v100 main_v103 ((fun x i u => Host.scatterAdd scatter_S100000x16_S800000x1_S800000x16_1_0_0_1 x i u) : (⟨S100000x16, .f32⟩ : BufTy).Contents (Elt F) → (⟨S800000x1, .i32⟩ : BufTy).Contents (Elt F) → (⟨S800000x16, .f32⟩ : BufTy).Contents (Elt F) → (⟨S100000x16, .f32⟩ : BufTy).Contents (Elt F)) ]

abbrev opsD1 : List (HloOp τ sig (Elt F)) :=
  [ nullary main_cst_25 (constant S_ .f32 0x3F800000#32),
    unary main_cst_25 main_v104 (broadcastInDim S800000 ![] bcast_S_S800000 : (⟨S_, .f32⟩ : BufTy).Contents (Elt F) → (⟨S800000, .f32⟩ : BufTy).Contents (Elt F)),
    nullary main_cst_26 (constant S_ .f32 0x00000000#32),
    unary main_cst_26 main_v105 (broadcastInDim S100000 ![] bcast_S_S100000 : (⟨S_, .f32⟩ : BufTy).Contents (Elt F) → (⟨S100000, .f32⟩ : BufTy).Contents (Elt F)),
    unary main_arg2 main_v106 (broadcastInDim S800000x1 ![0] bcast_S800000_S800000x1_0 : (⟨S800000, .i32⟩ : BufTy).Contents (Elt F) → (⟨S800000x1, .i32⟩ : BufTy).Contents (Elt F)),
    ternary main_v105 main_v106 main_v104 main_v107 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_27 (constant S_ .f32 0x3F800000#32),
    unary main_cst_27 main_v108 (broadcastInDim S100000 ![] bcast_S_S100000 : (⟨S_, .f32⟩ : BufTy).Contents (Elt F) → (⟨S100000, .f32⟩ : BufTy).Contents (Elt F)),
    binary main_v107 main_v108 main_v109 (maximumf : (⟨S100000, .f32⟩ : BufTy).Contents (Elt F) → (⟨S100000, .f32⟩ : BufTy).Contents (Elt F) → (⟨S100000, .f32⟩ : BufTy).Contents (Elt F)),
    unary main_v109 main_v110 (broadcastInDim S100000x1 ![0] bcast_S100000_S100000x1_0 : (⟨S100000, .f32⟩ : BufTy).Contents (Elt F) → (⟨S100000x1, .f32⟩ : BufTy).Contents (Elt F)),
    unary main_v110 main_v111 (broadcastInDim S100000x16 ![0, 1] bcast_S100000x1_S100000x16_0_1 : (⟨S100000x1, .f32⟩ : BufTy).Contents (Elt F) → (⟨S100000x16, .f32⟩ : BufTy).Contents (Elt F)),
    binary main_v103 main_v111 main_v112 (Host.divf : (⟨S100000x16, .f32⟩ : BufTy).Contents (Elt F) → (⟨S100000x16, .f32⟩ : BufTy).Contents (Elt F) → (⟨S100000x16, .f32⟩ : BufTy).Contents (Elt F)),
    binary main_v112 main_arg6 main_v113 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_arg7 main_v114 (broadcastInDim S1x40 ![1] bcast_S40_S1x40_1 : (⟨S40, .f32⟩ : BufTy).Contents (Elt F) → (⟨S1x40, .f32⟩ : BufTy).Contents (Elt F)),
    unary main_v114 main_v115 (broadcastInDim S100000x40 ![0, 1] bcast_S1x40_S100000x40_0_1 : (⟨S1x40, .f32⟩ : BufTy).Contents (Elt F) → (⟨S100000x40, .f32⟩ : BufTy).Contents (Elt F)),
    binary main_v113 main_v115 main_v116 (addf : (⟨S100000x40, .f32⟩ : BufTy).Contents (Elt F) → (⟨S100000x40, .f32⟩ : BufTy).Contents (Elt F) → (⟨S100000x40, .f32⟩ : BufTy).Contents (Elt F)) ]

abbrev opsD2 : List (HloOp τ sig (Elt F)) :=
  [ TRef.nullary (TRef.of (T := ⟨S_, .f32⟩) main_call1_cst) (constant S_ .f32 0xFF800000#32),
    TRef.binary (TRef.of (T := ⟨S100000x40, .f32⟩) main_v116) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v116) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v117) subf ]

/-- The program's operation list is the five stretches in order. -/
theorem ops_split : (ops : List (HloOp τ sig (Elt F))) = opsA ++ (opsB ++ (opsC ++ (opsD1 ++ opsD2))) := rfl

/-! ## No stretch writes an argument array -/

theorem keepA0 (W : Valuation τ sig (Elt Ideal)) :
    after (opsA (F := Ideal)) W (Proc.devRef .tc main_arg0) = W (Proc.devRef .tc main_arg0) := by
  after_results_simp <;> rfl
theorem keepA1 (W : Valuation τ sig (Elt Ideal)) :
    after (opsA (F := Ideal)) W (Proc.devRef .tc main_arg1) = W (Proc.devRef .tc main_arg1) := by
  after_results_simp <;> rfl
theorem keepA2 (W : Valuation τ sig (Elt Ideal)) :
    after (opsA (F := Ideal)) W (Proc.devRef .tc main_arg2) = W (Proc.devRef .tc main_arg2) := by
  after_results_simp <;> rfl
theorem keepA3 (W : Valuation τ sig (Elt Ideal)) :
    after (opsA (F := Ideal)) W (Proc.devRef .tc main_arg3) = W (Proc.devRef .tc main_arg3) := by
  after_results_simp <;> rfl
theorem keepA4 (W : Valuation τ sig (Elt Ideal)) :
    after (opsA (F := Ideal)) W (Proc.devRef .tc main_arg4) = W (Proc.devRef .tc main_arg4) := by
  after_results_simp <;> rfl
theorem keepA5 (W : Valuation τ sig (Elt Ideal)) :
    after (opsA (F := Ideal)) W (Proc.devRef .tc main_arg5) = W (Proc.devRef .tc main_arg5) := by
  after_results_simp <;> rfl
theorem keepA6 (W : Valuation τ sig (Elt Ideal)) :
    after (opsA (F := Ideal)) W (Proc.devRef .tc main_arg6) = W (Proc.devRef .tc main_arg6) := by
  after_results_simp <;> rfl
theorem keepA7 (W : Valuation τ sig (Elt Ideal)) :
    after (opsA (F := Ideal)) W (Proc.devRef .tc main_arg7) = W (Proc.devRef .tc main_arg7) := by
  after_results_simp <;> rfl

theorem keepB0 (W : Valuation τ sig (Elt Ideal)) :
    after (opsB (F := Ideal)) W (Proc.devRef .tc main_arg0) = W (Proc.devRef .tc main_arg0) := by
  after_results_simp <;> rfl
theorem keepB1 (W : Valuation τ sig (Elt Ideal)) :
    after (opsB (F := Ideal)) W (Proc.devRef .tc main_arg1) = W (Proc.devRef .tc main_arg1) := by
  after_results_simp <;> rfl
theorem keepB2 (W : Valuation τ sig (Elt Ideal)) :
    after (opsB (F := Ideal)) W (Proc.devRef .tc main_arg2) = W (Proc.devRef .tc main_arg2) := by
  after_results_simp <;> rfl
theorem keepB3 (W : Valuation τ sig (Elt Ideal)) :
    after (opsB (F := Ideal)) W (Proc.devRef .tc main_arg3) = W (Proc.devRef .tc main_arg3) := by
  after_results_simp <;> rfl
theorem keepB4 (W : Valuation τ sig (Elt Ideal)) :
    after (opsB (F := Ideal)) W (Proc.devRef .tc main_arg4) = W (Proc.devRef .tc main_arg4) := by
  after_results_simp <;> rfl
theorem keepB5 (W : Valuation τ sig (Elt Ideal)) :
    after (opsB (F := Ideal)) W (Proc.devRef .tc main_arg5) = W (Proc.devRef .tc main_arg5) := by
  after_results_simp <;> rfl
theorem keepB6 (W : Valuation τ sig (Elt Ideal)) :
    after (opsB (F := Ideal)) W (Proc.devRef .tc main_arg6) = W (Proc.devRef .tc main_arg6) := by
  after_results_simp <;> rfl
theorem keepB7 (W : Valuation τ sig (Elt Ideal)) :
    after (opsB (F := Ideal)) W (Proc.devRef .tc main_arg7) = W (Proc.devRef .tc main_arg7) := by
  after_results_simp <;> rfl

theorem keepC0 (W : Valuation τ sig (Elt Ideal)) :
    after (opsC (F := Ideal)) W (Proc.devRef .tc main_arg0) = W (Proc.devRef .tc main_arg0) := by
  after_results_simp <;> rfl
theorem keepC1 (W : Valuation τ sig (Elt Ideal)) :
    after (opsC (F := Ideal)) W (Proc.devRef .tc main_arg1) = W (Proc.devRef .tc main_arg1) := by
  after_results_simp <;> rfl
theorem keepC2 (W : Valuation τ sig (Elt Ideal)) :
    after (opsC (F := Ideal)) W (Proc.devRef .tc main_arg2) = W (Proc.devRef .tc main_arg2) := by
  after_results_simp <;> rfl
theorem keepC3 (W : Valuation τ sig (Elt Ideal)) :
    after (opsC (F := Ideal)) W (Proc.devRef .tc main_arg3) = W (Proc.devRef .tc main_arg3) := by
  after_results_simp <;> rfl
theorem keepC4 (W : Valuation τ sig (Elt Ideal)) :
    after (opsC (F := Ideal)) W (Proc.devRef .tc main_arg4) = W (Proc.devRef .tc main_arg4) := by
  after_results_simp <;> rfl
theorem keepC5 (W : Valuation τ sig (Elt Ideal)) :
    after (opsC (F := Ideal)) W (Proc.devRef .tc main_arg5) = W (Proc.devRef .tc main_arg5) := by
  after_results_simp <;> rfl
theorem keepC6 (W : Valuation τ sig (Elt Ideal)) :
    after (opsC (F := Ideal)) W (Proc.devRef .tc main_arg6) = W (Proc.devRef .tc main_arg6) := by
  after_results_simp <;> rfl
theorem keepC7 (W : Valuation τ sig (Elt Ideal)) :
    after (opsC (F := Ideal)) W (Proc.devRef .tc main_arg7) = W (Proc.devRef .tc main_arg7) := by
  after_results_simp <;> rfl

theorem keepD10 (W : Valuation τ sig (Elt Ideal)) :
    after (opsD1 (F := Ideal)) W (Proc.devRef .tc main_arg0) = W (Proc.devRef .tc main_arg0) := by
  after_results_simp <;> rfl
theorem keepD11 (W : Valuation τ sig (Elt Ideal)) :
    after (opsD1 (F := Ideal)) W (Proc.devRef .tc main_arg1) = W (Proc.devRef .tc main_arg1) := by
  after_results_simp <;> rfl
theorem keepD12 (W : Valuation τ sig (Elt Ideal)) :
    after (opsD1 (F := Ideal)) W (Proc.devRef .tc main_arg2) = W (Proc.devRef .tc main_arg2) := by
  after_results_simp <;> rfl
theorem keepD13 (W : Valuation τ sig (Elt Ideal)) :
    after (opsD1 (F := Ideal)) W (Proc.devRef .tc main_arg3) = W (Proc.devRef .tc main_arg3) := by
  after_results_simp <;> rfl
theorem keepD14 (W : Valuation τ sig (Elt Ideal)) :
    after (opsD1 (F := Ideal)) W (Proc.devRef .tc main_arg4) = W (Proc.devRef .tc main_arg4) := by
  after_results_simp <;> rfl
theorem keepD15 (W : Valuation τ sig (Elt Ideal)) :
    after (opsD1 (F := Ideal)) W (Proc.devRef .tc main_arg5) = W (Proc.devRef .tc main_arg5) := by
  after_results_simp <;> rfl
theorem keepD16 (W : Valuation τ sig (Elt Ideal)) :
    after (opsD1 (F := Ideal)) W (Proc.devRef .tc main_arg6) = W (Proc.devRef .tc main_arg6) := by
  after_results_simp <;> rfl
theorem keepD17 (W : Valuation τ sig (Elt Ideal)) :
    after (opsD1 (F := Ideal)) W (Proc.devRef .tc main_arg7) = W (Proc.devRef .tc main_arg7) := by
  after_results_simp <;> rfl

theorem keepD20 (W : Valuation τ sig (Elt Ideal)) :
    after (opsD2 (F := Ideal)) W (Proc.devRef .tc main_arg0) = W (Proc.devRef .tc main_arg0) := by
  after_results_simp <;> rfl
theorem keepD21 (W : Valuation τ sig (Elt Ideal)) :
    after (opsD2 (F := Ideal)) W (Proc.devRef .tc main_arg1) = W (Proc.devRef .tc main_arg1) := by
  after_results_simp <;> rfl
theorem keepD22 (W : Valuation τ sig (Elt Ideal)) :
    after (opsD2 (F := Ideal)) W (Proc.devRef .tc main_arg2) = W (Proc.devRef .tc main_arg2) := by
  after_results_simp <;> rfl
theorem keepD23 (W : Valuation τ sig (Elt Ideal)) :
    after (opsD2 (F := Ideal)) W (Proc.devRef .tc main_arg3) = W (Proc.devRef .tc main_arg3) := by
  after_results_simp <;> rfl
theorem keepD24 (W : Valuation τ sig (Elt Ideal)) :
    after (opsD2 (F := Ideal)) W (Proc.devRef .tc main_arg4) = W (Proc.devRef .tc main_arg4) := by
  after_results_simp <;> rfl
theorem keepD25 (W : Valuation τ sig (Elt Ideal)) :
    after (opsD2 (F := Ideal)) W (Proc.devRef .tc main_arg5) = W (Proc.devRef .tc main_arg5) := by
  after_results_simp <;> rfl
theorem keepD26 (W : Valuation τ sig (Elt Ideal)) :
    after (opsD2 (F := Ideal)) W (Proc.devRef .tc main_arg6) = W (Proc.devRef .tc main_arg6) := by
  after_results_simp <;> rfl
theorem keepD27 (W : Valuation τ sig (Elt Ideal)) :
    after (opsD2 (F := Ideal)) W (Proc.devRef .tc main_arg7) = W (Proc.devRef .tc main_arg7) := by
  after_results_simp <;> rfl

end Cert.ReferenceIdeal.RefRun

end
-- ==== Proof.RefRunA.lean ====
/-
  Stretch A of the reference's operations (1 – 57), read back: the buffer it ends at holds the summed features of layer 1 —
  gather the incident nodes' features, weight them, scatter-add to hyperedges, divide by the floored hyperedge weight, gather
  back, scatter-add to nodes — as the reference's own stage function of the launch arrays.
-/
import proofs.«180286_j58042188038707_1_alg».proof.Proof.RefRunOps

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 4000000 in
/-- Stretch A: the summed features of layer 1, of the launch arrays. -/
theorem stretchA (W : Valuation τ sig (Elt Ideal)) :
    after (opsA (F := Ideal)) W (Proc.devRef .tc main_v44)
      = val_main_v44 (F := Ideal) (W (Proc.devRef .tc main_arg0)) (W (Proc.devRef .tc main_arg1)) (W (Proc.devRef .tc main_arg2)) (W (Proc.devRef .tc main_arg3)) := by
  after_results_simp <;> rfl

end Cert.ReferenceIdeal.RefRun

end
-- ==== Proof.RefRunB.lean ====
/-
  Stretch B of the reference's operations (58 – 76), read back: started from the summed features of layer 1 it ends with
  layer 1's output — degrees, division, product with the first weight matrix, bias, relu — as the reference's stage function.
-/
import proofs.«180286_j58042188038707_1_alg».proof.Proof.RefRunOps

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 4000000 in
/-- Stretch B: layer 1's output, when it starts from the summed features of layer 1. -/
theorem stretchB (W : Valuation τ sig (Elt Ideal)) (a0 : (⟨S100000x256, .f32⟩ : BufTy).Contents (Elt Ideal)) (a1 : (⟨S100000, .f32⟩ : BufTy).Contents (Elt Ideal)) (a2 a3 : (⟨S800000, .i32⟩ : BufTy).Contents (Elt Ideal)) (a4 : (⟨S256x16, .f32⟩ : BufTy).Contents (Elt Ideal)) (a5 : (⟨S16, .f32⟩ : BufTy).Contents (Elt Ideal))
    (h44 : W (Proc.devRef .tc main_v44) = val_main_v44 (F := Ideal) a0 a1 a2 a3) (h2 : W (Proc.devRef .tc main_arg2) = a2)
    (h4 : W (Proc.devRef .tc main_arg4) = a4) (h5 : W (Proc.devRef .tc main_arg5) = a5) :
    after (opsB (F := Ideal)) W (Proc.devRef .tc main_v58) = val_main_v58 (F := Ideal) a0 a1 a2 a3 a4 a5 := by
  after_results_simp
  rw [h44, h2, h4, h5]
  rfl

end Cert.ReferenceIdeal.RefRun

end
-- ==== Proof.RefRunC.lean ====
/-
  Stretch C of the reference's operations (77 – 133), read back: started from layer 1's output it ends with the summed
  features of layer 2 (the same averaging as stretch A), as the reference's stage function.
-/
import proofs.«180286_j58042188038707_1_alg».proof.Proof.RefRunOps

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 4000000 in
/-- Stretch C: the summed features of layer 2, when it starts from layer 1's output. -/
theorem stretchC (W : Valuation τ sig (Elt Ideal)) (a0 : (⟨S100000x256, .f32⟩ : BufTy).Contents (Elt Ideal)) (a1 : (⟨S100000, .f32⟩ : BufTy).Contents (Elt Ideal)) (a2 a3 : (⟨S800000, .i32⟩ : BufTy).Contents (Elt Ideal)) (a4 : (⟨S256x16, .f32⟩ : BufTy).Contents (Elt Ideal)) (a5 : (⟨S16, .f32⟩ : BufTy).Contents (Elt Ideal))
    (h58 : W (Proc.devRef .tc main_v58) = val_main_v58 (F := Ideal) a0 a1 a2 a3 a4 a5) (h1 : W (Proc.devRef .tc main_arg1) = a1)
    (h2 : W (Proc.devRef .tc main_arg2) = a2) (h3 : W (Proc.devRef .tc main_arg3) = a3) :
    after (opsC (F := Ideal)) W (Proc.devRef .tc main_v103) = val_main_v103 (F := Ideal) a0 a1 a2 a3 a4 a5 := by
  after_results_simp
  rw [h58, h1, h2, h3]
  rfl

end Cert.ReferenceIdeal.RefRun

end
-- ==== Proof.RefRunD.lean ====
/-
  Stretches D1 and D2 of the reference's operations (134 – 164), read back: started from the summed features of layer 2,
  D1 ends with the logits (degrees, division, second product, bias); started from the logits, D2 ends with their row-wise
  log-softmax, the program's result.
-/
import proofs.«180286_j58042188038707_1_alg».proof.Proof.RefRunOps

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 4000000 in
/-- Stretch D1: the logits, when it starts from the summed features of layer 2. -/
theorem stretchD1 (W : Valuation τ sig (Elt Ideal)) (a0 : (⟨S100000x256, .f32⟩ : BufTy).Contents (Elt Ideal)) (a1 : (⟨S100000, .f32⟩ : BufTy).Contents (Elt Ideal)) (a2 a3 : (⟨S800000, .i32⟩ : BufTy).Contents (Elt Ideal)) (a4 : (⟨S256x16, .f32⟩ : BufTy).Contents (Elt Ideal)) (a5 : (⟨S16, .f32⟩ : BufTy).Contents (Elt Ideal)) (a6 : (⟨S16x40, .f32⟩ : BufTy).Contents (Elt Ideal)) (a7 : (⟨S40, .f32⟩ : BufTy).Contents (Elt Ideal))
    (h103 : W (Proc.devRef .tc main_v103) = val_main_v103 (F := Ideal) a0 a1 a2 a3 a4 a5) (h2 : W (Proc.devRef .tc main_arg2) = a2)
    (h6 : W (Proc.devRef .tc main_arg6) = a6) (h7 : W (Proc.devRef .tc main_arg7) = a7) :
    after (opsD1 (F := Ideal)) W (Proc.devRef .tc main_v116) = val_main_v116 (F := Ideal) a0 a1 a2 a3 a4 a5 a6 a7 := by
  after_results_simp
  rw [h103, h2, h6, h7]
  rfl

set_option maxHeartbeats 4000000 in
/-- Stretch D2: the result, when it starts from the logits. The log-softmax is a called function: its operations go
    through typed references, whose transports cancel; with the fifteen stages spelt out and the logits named, the two sides
    are one term. -/
theorem stretchD2 (W : Valuation τ sig (Elt Ideal)) (a0 : (⟨S100000x256, .f32⟩ : BufTy).Contents (Elt Ideal)) (a1 : (⟨S100000, .f32⟩ : BufTy).Contents (Elt Ideal)) (a2 a3 : (⟨S800000, .i32⟩ : BufTy).Contents (Elt Ideal)) (a4 : (⟨S256x16, .f32⟩ : BufTy).Contents (Elt Ideal)) (a5 : (⟨S16, .f32⟩ : BufTy).Contents (Elt Ideal)) (a6 : (⟨S16x40, .f32⟩ : BufTy).Contents (Elt Ideal)) (a7 : (⟨S40, .f32⟩ : BufTy).Contents (Elt Ideal))
    (h116 : W (Proc.devRef .tc main_v116) = val_main_v116 (F := Ideal) a0 a1 a2 a3 a4 a5 a6 a7) :
    after (opsD2 (F := Ideal)) W (Proc.devRef .tc main_v117) = val_main_v117 (F := Ideal) a0 a1 a2 a3 a4 a5 a6 a7 := by
  after_results_simp
  repeat rw [ofBuf_toBuf]
  rw [h116]
  unfold val_main_v117 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst
  generalize val_main_v116 (F := Ideal) a0 a1 a2 a3 a4 a5 a6 a7 = Y
  rfl

end Cert.ReferenceIdeal.RefRun

end
-- ==== Proof.RefRunChunks.lean ====
/-
  The reference program's run, read back in five stretches.

  The reference is a straight line of 164 host operations. Every weakly fair execution of it terminates with each buffer
  at the fold of the operations' results over the launch contents (the library's theorem for a straight-line program); what
  is proved here is what that fold holds at the result buffer. The list is cut where the mathematics cuts it:
    A  operations   1 –  57: node → hyperedge → node averaging of the input features, up to the summed features of layer 1;
    B  operations  58 –  76: the node degrees, the division, the product with the first weight matrix, the bias, the relu;
    C  operations  77 – 133: the same averaging applied to layer 1's output, up to the summed features of layer 2;
    D1 operations 134 – 149: degrees, division, the second product, the bias: the logits;
    D2 operations 150 – 164: the row-wise log-softmax of the logits.
  (The lists are in RefRunOps.lean, each stretch's read-back in RefRunA … RefRunD.lean; this module composes them.)
  After each stretch the buffer it ends at holds the reference's own stage function (`val_main_v44`, `v58`, `v103`, `v116`, `v117` of the
  module that reads the program one operation at a time) of the launch arrays, and no stretch writes an argument array.
-/
import proofs.«180286_j58042188038707_1_alg».proof.Proof.RefRunA
import proofs.«180286_j58042188038707_1_alg».proof.Proof.RefRunB
import proofs.«180286_j58042188038707_1_alg».proof.Proof.RefRunC
import proofs.«180286_j58042188038707_1_alg».proof.Proof.RefRunD

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The whole list -/

/-- After all 164 operations the result buffer holds the reference's result function of the launch arrays. -/
theorem after_ops_result (V : Valuation τ sig (Elt Ideal)) :
    after (ops (F := Ideal)) V (Proc.devRef .tc main_v117)
      = val_main_v117 (F := Ideal) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, after_append, after_append, after_append, after_append]
  refine stretchD2 _ _ _ _ _ _ _ _ _ ?_
  refine stretchD1 _ _ _ _ _ _ _ _ _ ?_ ?_ ?_ ?_
  · refine stretchC _ _ _ _ _ _ _ ?_ ?_ ?_ ?_
    · refine stretchB _ _ _ _ _ _ _ (stretchA V) ?_ ?_ ?_
      · exact keepA2 V
      · exact keepA4 V
      · exact keepA5 V
    · exact (keepB1 _).trans (keepA1 V)
    · exact (keepB2 _).trans (keepA2 V)
    · exact (keepB3 _).trans (keepA3 V)
  · exact (keepC2 _).trans ((keepB2 _).trans (keepA2 V))
  · exact (keepC6 _).trans ((keepB6 _).trans (keepA6 V))
  · exact (keepC7 _).trans ((keepB7 _).trans (keepA7 V))

theorem after_ops_arg0 (V : Valuation τ sig (Elt Ideal)) : after (ops (F := Ideal)) V (Proc.devRef .tc main_arg0) = V (Proc.devRef .tc main_arg0) := by
  rw [ops_split, after_append, after_append, after_append, after_append]
  exact (keepD20 _).trans ((keepD10 _).trans ((keepC0 _).trans ((keepB0 _).trans (keepA0 V))))
theorem after_ops_arg1 (V : Valuation τ sig (Elt Ideal)) : after (ops (F := Ideal)) V (Proc.devRef .tc main_arg1) = V (Proc.devRef .tc main_arg1) := by
  rw [ops_split, after_append, after_append, after_append, after_append]
  exact (keepD21 _).trans ((keepD11 _).trans ((keepC1 _).trans ((keepB1 _).trans (keepA1 V))))
theorem after_ops_arg2 (V : Valuation τ sig (Elt Ideal)) : after (ops (F := Ideal)) V (Proc.devRef .tc main_arg2) = V (Proc.devRef .tc main_arg2) := by
  rw [ops_split, after_append, after_append, after_append, after_append]
  exact (keepD22 _).trans ((keepD12 _).trans ((keepC2 _).trans ((keepB2 _).trans (keepA2 V))))
theorem after_ops_arg3 (V : Valuation τ sig (Elt Ideal)) : after (ops (F := Ideal)) V (Proc.devRef .tc main_arg3) = V (Proc.devRef .tc main_arg3) := by
  rw [ops_split, after_append, after_append, after_append, after_append]
  exact (keepD23 _).trans ((keepD13 _).trans ((keepC3 _).trans ((keepB3 _).trans (keepA3 V))))
theorem after_ops_arg4 (V : Valuation τ sig (Elt Ideal)) : after (ops (F := Ideal)) V (Proc.devRef .tc main_arg4) = V (Proc.devRef .tc main_arg4) := by
  rw [ops_split, after_append, after_append, after_append, after_append]
  exact (keepD24 _).trans ((keepD14 _).trans ((keepC4 _).trans ((keepB4 _).trans (keepA4 V))))
theorem after_ops_arg5 (V : Valuation τ sig (Elt Ideal)) : after (ops (F := Ideal)) V (Proc.devRef .tc main_arg5) = V (Proc.devRef .tc main_arg5) := by
  rw [ops_split, after_append, after_append, after_append, after_append]
  exact (keepD25 _).trans ((keepD15 _).trans ((keepC5 _).trans ((keepB5 _).trans (keepA5 V))))
theorem after_ops_arg6 (V : Valuation τ sig (Elt Ideal)) : after (ops (F := Ideal)) V (Proc.devRef .tc main_arg6) = V (Proc.devRef .tc main_arg6) := by
  rw [ops_split, after_append, after_append, after_append, after_append]
  exact (keepD26 _).trans ((keepD16 _).trans ((keepC6 _).trans ((keepB6 _).trans (keepA6 V))))
theorem after_ops_arg7 (V : Valuation τ sig (Elt Ideal)) : after (ops (F := Ideal)) V (Proc.devRef .tc main_arg7) = V (Proc.devRef .tc main_arg7) := by
  rw [ops_split, after_append, after_append, after_append, after_append]
  exact (keepD27 _).trans ((keepD17 _).trans ((keepC7 _).trans ((keepB7 _).trans (keepA7 V))))

/-- THE RUN: every weakly fair execution of the reference terminates without a fault, with the result buffer at the
    reference's result function of the launch arrays and every argument array as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117)
        = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v117).trans (after_ops_result _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _)⟩)
    (run_seq scopedRefs_eq scopedSems_eq defs main (fun _ => ops) main_eq (fun _ => ops_sub) m ρ)

end Cert.ReferenceIdeal.RefRun

end
-- ==== Proof.RefLayers.lean ====
/-
  The two dense stages of the reference program, read entry by entry.

  After the node → hyperedge → node averaging the reference holds, for each layer, the array of summed features and the
  vector of degrees. It floors the degree at one, divides each row by it, multiplies by the weights and adds the bias;
  the first layer then floors the result at zero, the second applies a row-wise log-softmax (subtract the row's maximum,
  then subtract the logarithm of the sum of the exponentials of the shifted row). Read at the entry (r, j) each of these
  is the corresponding function of NodeLayers at row r and column j: the gathers and scatter-adds that produce the summed
  features and the degrees stay opaque.
-/
import proofs.«180286_j58042188038707_1_alg».proof.Proof.RefReadPatched
import proofs.«180286_j58042188038707_1_alg».proof.Proof.NodeLayers
import Idealize.ShloMosaic.Lib.ValueIdx
import Idealize.ShloMosaic.PureOps.Ideal.Laws
noncomputable section
namespace Cert.ReferenceIdeal.RefLayers
open Cert.ReferenceIdeal Cert.ReferenceIdeal.Gen Cert.ReferenceIdeal.ReadP Idealize.ShloMosaic Idealize.ShloMosaic.ValueIdx Cert.HyperConv

/-! ## The degree column -/

/-- The degree vector broadcast to a column, read at row r, is the degree of r. -/
private theorem degCol_apply (g : (⟨S100000, .f32⟩ : BufTy).Contents (Elt Ideal)) (r : Fin 100000) :
    broadcastInDim S100000x1 ![0] bcast_S100000_S100000x1_0 g (ix2 r (0 : Fin 1)) = g (ix1 r) :=
  broadcastInDim_apply _ bcast_S100000_S100000x1_0 g (ix2 r (0 : Fin 1)) (ix1 r) (fun a => match a with
    | ⟨0, _⟩ => by show r.val = if (100000 : Nat) = 1 then 0 else r.val; rw [if_neg (by decide)])

/-! ## Where each layout operation and each contraction reads, at the entry (r, j) -/

private theorem lidx54 (r : Fin 100000) (j : Fin 16) (k : Fin 256) : lidx_main_v54 (ix2 r j) k = ix2 r k :=
  funext fun a => Fin.ext (by match a with | ⟨0, _⟩ => rfl | ⟨1, _⟩ => rfl)
private theorem ridx54 (r : Fin 100000) (j : Fin 16) (k : Fin 256) : ridx_main_v54 (ix2 r j) k = ix2 k j :=
  funext fun a => Fin.ext (by match a with | ⟨0, _⟩ => rfl | ⟨1, _⟩ => rfl)
private theorem idx52 (r : Fin 100000) (k : Fin 256) : idx_main_v52 (ix2 r k) = ix2 r (0 : Fin 1) :=
  funext fun a => Fin.ext (by match a with | ⟨0, _⟩ => rfl | ⟨1, _⟩ => rfl)
private theorem idx51 (r : Fin 100000) : idx_main_v51 (ix2 r (0 : Fin 1)) = ix1 r :=
  funext fun a => Fin.ext (by match a with | ⟨0, _⟩ => rfl)
private theorem idx56 (r : Fin 100000) (j : Fin 16) : idx_main_v56 (ix2 r j) = ix2 (0 : Fin 1) j :=
  funext fun a => Fin.ext (by match a with | ⟨0, _⟩ => rfl | ⟨1, _⟩ => rfl)

private theorem lidx113 (r : Fin 100000) (j : Fin 40) (k : Fin 16) : lidx_main_v113 (ix2 r j) k = ix2 r k :=
  funext fun a => Fin.ext (by match a with | ⟨0, _⟩ => rfl | ⟨1, _⟩ => rfl)
private theorem ridx113 (r : Fin 100000) (j : Fin 40) (k : Fin 16) : ridx_main_v113 (ix2 r j) k = ix2 k j :=
  funext fun a => Fin.ext (by match a with | ⟨0, _⟩ => rfl | ⟨1, _⟩ => rfl)
private theorem idx111 (r : Fin 100000) (k : Fin 16) : idx_main_v111 (ix2 r k) = ix2 r (0 : Fin 1) :=
  funext fun a => Fin.ext (by match a with | ⟨0, _⟩ => rfl | ⟨1, _⟩ => rfl)
private theorem idx110 (r : Fin 100000) : idx_main_v110 (ix2 r (0 : Fin 1)) = ix1 r :=
  funext fun a => Fin.ext (by match a with | ⟨0, _⟩ => rfl)
private theorem idx115 (r : Fin 100000) (j : Fin 40) : idx_main_v115 (ix2 r j) = ix2 (0 : Fin 1) j :=
  funext fun a => Fin.ext (by match a with | ⟨0, _⟩ => rfl | ⟨1, _⟩ => rfl)
private theorem idxMaxRow (r : Fin 100000) (j : Fin 40) : idx_main_call1_v4 (ix2 r j) = ix2 r (0 : Fin 1) :=
  funext fun a => Fin.ext (by match a with | ⟨0, _⟩ => rfl | ⟨1, _⟩ => rfl)
private theorem idxMaxCol (r : Fin 100000) : idx_main_call1_v3 (ix2 r (0 : Fin 1)) = ix1 r :=
  funext fun a => Fin.ext (by match a with | ⟨0, _⟩ => rfl)
private theorem idxSum (r : Fin 100000) (k : Fin 40) : idx_main_call1_v7 (ix1 r) k = ix2 r k :=
  funext fun a => Fin.ext (by match a with | ⟨0, _⟩ => rfl | ⟨1, _⟩ => rfl)
private theorem idxSumCol (r : Fin 100000) : idx_main_call1_v8 (ix2 r (0 : Fin 1)) = ix1 r :=
  funext fun a => Fin.ext (by match a with | ⟨0, _⟩ => rfl)
private theorem idxLogRow (r : Fin 100000) (j : Fin 40) : idx_main_call1_v10 (ix2 r j) = ix2 r (0 : Fin 1) :=
  funext fun a => Fin.ext (by match a with | ⟨0, _⟩ => rfl | ⟨1, _⟩ => rfl)

/-- The row index r with the column k put back on the reduced axis is (r, k). -/
private theorem lift_row (h : S100000x40.Reduces [1] S100000) (r : Fin 100000) (k : Fin (S100000x40.size 1)) :
    h.lift (ix1 r) k = ix2 r (⟨k.val, k.isLt⟩ : Fin 40) := by
  funext c; apply Fin.ext
  fin_cases c <;> rfl

/-- A reduce with a maximum body over the columns of any array y, started from any value that is minus infinity, is at
    row r the maximum of row r of y. -/
private theorem rowMax_of_reduce (y : (⟨S100000x40, .f32⟩ : BufTy).Contents (Elt Ideal))
    (c : (⟨S_, .f32⟩ : BufTy).Contents (Elt Ideal)) (hc : c (Shape.Idx.first h_S_) = negInfW) (r : Fin 100000) :
    Host.reduce (FloatOps.maximumf (F := Ideal) (φ := .f32)) y c reducesTo_S100000x40_S100000_d1 h_S_ (ix1 r)
      = rowMax (fun k : Fin 40 => y (ix2 r k)) := by
  have h : S100000x40.Reduces [1] S100000 := by decide
  rw [Host.reduce_eq_fold_single (FloatOps.maximumf (F := Ideal) (φ := .f32)) y c reducesTo_S100000x40_S100000_d1 h h_S_, hc]
  have hf : (y ∘ h.lift (ix1 r)) = fun k : Fin 40 => y (ix2 r k) := funext fun k => congrArg y (lift_row h r k)
  exact congrArg (fun f => Finset.fold max negInfW f (Finset.univ : Finset (Fin 40))) hf

section Stages

variable (x0 : (⟨S100000x256, .f32⟩ : BufTy).Contents (Elt Ideal)) (x1 : (⟨S100000, .f32⟩ : BufTy).Contents (Elt Ideal))
  (x2 x3 : (⟨S800000, .i32⟩ : BufTy).Contents (Elt Ideal)) (x4 : (⟨S256x16, .f32⟩ : BufTy).Contents (Elt Ideal))
  (x5 : (⟨S16, .f32⟩ : BufTy).Contents (Elt Ideal)) (x6 : (⟨S16x40, .f32⟩ : BufTy).Contents (Elt Ideal))
  (x7 : (⟨S40, .f32⟩ : BufTy).Contents (Elt Ideal))

/-! ## The first layer -/

/-- An entry of the first layer's averaged features: the summed entry over the degree of its row floored at one. -/
private theorem avg1_ix2 (r : Fin 100000) (k : Fin 256) :
    val_main_v53 (F := Ideal) x0 x1 x2 x3 (ix2 r k)
      = Ideal.div (val_main_v44 (F := Ideal) x0 x1 x2 x3 (ix2 r k)) (max (val_main_v48 (F := Ideal) x2 (ix1 r)) oneW) := by
  rw [val_main_v53_apply, val_main_v52_apply, idx52, val_main_v51_apply, idx51, val_main_v50_apply, val_main_v49_apply,
    val_main_cst_12_apply, Ideal.hostDivf_def, Ideal.maximumf_def, Ideal.ofBits_def]

/-- The first layer's pre-activation at (r, j). -/
private theorem pre1_ix2 (r : Fin 100000) (j : Fin 16) :
    val_main_v57 (F := Ideal) x0 x1 x2 x3 x4 x5 (ix2 r j)
      = preact (val_main_v44 (F := Ideal) x0 x1 x2 x3)
          (broadcastInDim S100000x1 ![0] bcast_S100000_S100000x1_0 (val_main_v48 (F := Ideal) x2)) x4
          (val_main_v55 (F := Ideal) x5) r j := by
  have hsum : ∀ k : Fin 256,
      val_main_v53 (F := Ideal) x0 x1 x2 x3 (lidx_main_v54 (ix2 r j) k) * x4 (ridx_main_v54 (ix2 r j) k)
        = Ideal.div (val_main_v44 (F := Ideal) x0 x1 x2 x3 (ix2 r k)) (max (val_main_v48 (F := Ideal) x2 (ix1 r)) oneW)
            * x4 (ix2 k j) := by
    intro k; rw [lidx54, ridx54, avg1_ix2]
  rw [val_main_v57_apply, Ideal.addf_def, val_main_v54_apply, val_main_v56_apply, idx56,
    Finset.sum_congr rfl (fun k _ => hsum k)]
  unfold preact nodeAffine
  rw [degCol_apply]

/-! ## The second layer -/

/-- An entry of the second layer's averaged features. -/
private theorem avg2_ix2 (r : Fin 100000) (k : Fin 16) :
    val_main_v112 (F := Ideal) x0 x1 x2 x3 x4 x5 (ix2 r k)
      = Ideal.div (val_main_v103 (F := Ideal) x0 x1 x2 x3 x4 x5 (ix2 r k)) (max (val_main_v107 (F := Ideal) x2 (ix1 r)) oneW) := by
  rw [val_main_v112_apply, val_main_v111_apply, idx111, val_main_v110_apply, idx110, val_main_v109_apply, val_main_v108_apply,
    val_main_cst_27_apply, Ideal.hostDivf_def, Ideal.maximumf_def, Ideal.ofBits_def]

/-- The second layer's pre-activation at (r, j). -/
private theorem pre2_ix2 (r : Fin 100000) (j : Fin 40) :
    val_main_v116 (F := Ideal) x0 x1 x2 x3 x4 x5 x6 x7 (ix2 r j)
      = preact (val_main_v103 (F := Ideal) x0 x1 x2 x3 x4 x5)
          (broadcastInDim S100000x1 ![0] bcast_S100000_S100000x1_0 (val_main_v107 (F := Ideal) x2)) x6
          (val_main_v114 (F := Ideal) x7) r j := by
  have hsum : ∀ k : Fin 16,
      val_main_v112 (F := Ideal) x0 x1 x2 x3 x4 x5 (lidx_main_v113 (ix2 r j) k) * x6 (ridx_main_v113 (ix2 r j) k)
        = Ideal.div (val_main_v103 (F := Ideal) x0 x1 x2 x3 x4 x5 (ix2 r k)) (max (val_main_v107 (F := Ideal) x2 (ix1 r)) oneW)
            * x6 (ix2 k j) := by
    intro k; rw [lidx113, ridx113, avg2_ix2]
  rw [val_main_v116_apply, Ideal.addf_def, val_main_v113_apply, val_main_v115_apply, idx115,
    Finset.sum_congr rfl (fun k _ => hsum k)]
  unfold preact nodeAffine
  rw [degCol_apply]

/-- The reduce with a maximum body over the columns, from minus infinity, is at row r the maximum of that row of
    pre-activations. -/
private theorem max_ix1 (r : Fin 100000) :
    val_main_call1_v0 (F := Ideal) x0 x1 x2 x3 x4 x5 x6 x7 (ix1 r)
      = rowMax (fun k : Fin 40 => val_main_v116 (F := Ideal) x0 x1 x2 x3 x4 x5 x6 x7 (ix2 r k)) := by
  unfold val_main_call1_v0
  exact rowMax_of_reduce _ _ (val_main_call1_cst_apply _) r

/-- A pre-activation less its row's maximum (the maximum with minus infinity in front of it changes nothing). -/
private theorem shift_ix2 (r : Fin 100000) (j : Fin 40) :
    val_main_call1_v5 (F := Ideal) x0 x1 x2 x3 x4 x5 x6 x7 (ix2 r j)
      = val_main_v116 (F := Ideal) x0 x1 x2 x3 x4 x5 x6 x7 (ix2 r j)
        - rowMax (fun k : Fin 40 => val_main_v116 (F := Ideal) x0 x1 x2 x3 x4 x5 x6 x7 (ix2 r k)) := by
  rw [val_main_call1_v5_apply, val_main_call1_v4_apply, idxMaxRow, val_main_call1_v3_apply, idxMaxCol, val_main_call1_v2_apply,
    val_main_call1_v1_apply, val_main_call1_cst_0_apply, max_ix1, Ideal.subf_def, Ideal.maximumf_def, Ideal.ofBits_def,
    max_negInfW]

/-- The sum over a row of the exponentials of the shifted pre-activations (the zero the sum starts from adds nothing). -/
private theorem sumExp_ix1 (r : Fin 100000) :
    val_main_call1_v7 (F := Ideal) x0 x1 x2 x3 x4 x5 x6 x7 (ix1 r)
      = ∑ k : Fin 40, Ideal.exp (val_main_v116 (F := Ideal) x0 x1 x2 x3 x4 x5 x6 x7 (ix2 r k)
          - rowMax (fun k' : Fin 40 => val_main_v116 (F := Ideal) x0 x1 x2 x3 x4 x5 x6 x7 (ix2 r k'))) := by
  have hterm : ∀ k : Fin 40,
      val_main_call1_v6 (F := Ideal) x0 x1 x2 x3 x4 x5 x6 x7 (idx_main_call1_v7 (ix1 r) k)
        = Ideal.exp (val_main_v116 (F := Ideal) x0 x1 x2 x3 x4 x5 x6 x7 (ix2 r k)
            - rowMax (fun k' : Fin 40 => val_main_v116 (F := Ideal) x0 x1 x2 x3 x4 x5 x6 x7 (ix2 r k'))) := by
    intro k; rw [idxSum, val_main_call1_v6_apply, shift_ix2, Ideal.hostUnary_exp_def]
  rw [val_main_call1_v7_apply, val_main_call1_cst_1_apply, Ideal.ofBits_def, Finset.sum_congr rfl (fun k _ => hterm k), zeroW_add]

/-- The reference's result at (r, j) is the log-softmax of row r of the pre-activations, at column j. -/
private theorem out_ix2 (r : Fin 100000) (j : Fin 40) :
    val_main_v117 (F := Ideal) x0 x1 x2 x3 x4 x5 x6 x7 (ix2 r j)
      = logSoftmaxRow (fun k : Fin 40 => val_main_v116 (F := Ideal) x0 x1 x2 x3 x4 x5 x6 x7 (ix2 r k)) j := by
  rw [val_main_v117_apply, val_main_call1_v10_apply, idxLogRow, val_main_call1_v9_apply, val_main_call1_v8_apply, idxSumCol,
    sumExp_ix1, shift_ix2, Ideal.subf_def, Ideal.hostUnary_log_def]
  unfold logSoftmaxRow
  rfl

end Stages

/-! ## The two layers -/

theorem layer1_eq (x0 : (⟨S100000x256, .f32⟩ : BufTy).Contents (Elt Ideal)) (x1 : (⟨S100000, .f32⟩ : BufTy).Contents (Elt Ideal)) (x2 x3 : (⟨S800000, .i32⟩ : BufTy).Contents (Elt Ideal)) (x4 : (⟨S256x16, .f32⟩ : BufTy).Contents (Elt Ideal)) (x5 : (⟨S16, .f32⟩ : BufTy).Contents (Elt Ideal)) :
    val_main_v58 (F := Ideal) x0 x1 x2 x3 x4 x5
      = reluLayer (val_main_v44 (F := Ideal) x0 x1 x2 x3) (broadcastInDim S100000x1 ![0] bcast_S100000_S100000x1_0 (val_main_v48 (F := Ideal) x2)) x4 (val_main_v55 (F := Ideal) x5) := by
  funext i
  obtain ⟨r, j, rfl⟩ : ∃ (r : Fin 100000) (j : Fin 16), i = ix2 r j := ⟨i 0, i 1, eq_ix2 i⟩
  rw [reluLayer_ix2, val_main_v58_apply, val_main_call0_v0_apply, val_main_call0_cst_apply, pre1_ix2, Ideal.maximumf_def,
    Ideal.ofBits_def]

theorem layer2_eq (x0 : (⟨S100000x256, .f32⟩ : BufTy).Contents (Elt Ideal)) (x1 : (⟨S100000, .f32⟩ : BufTy).Contents (Elt Ideal)) (x2 x3 : (⟨S800000, .i32⟩ : BufTy).Contents (Elt Ideal)) (x4 : (⟨S256x16, .f32⟩ : BufTy).Contents (Elt Ideal)) (x5 : (⟨S16, .f32⟩ : BufTy).Contents (Elt Ideal)) (x6 : (⟨S16x40, .f32⟩ : BufTy).Contents (Elt Ideal)) (x7 : (⟨S40, .f32⟩ : BufTy).Contents (Elt Ideal)) :
    val_main_v117 (F := Ideal) x0 x1 x2 x3 x4 x5 x6 x7
      = logSoftmaxLayer (val_main_v103 (F := Ideal) x0 x1 x2 x3 x4 x5) (broadcastInDim S100000x1 ![0] bcast_S100000_S100000x1_0 (val_main_v107 (F := Ideal) x2)) x6 (val_main_v114 (F := Ideal) x7) := by
  funext i
  obtain ⟨r, j, rfl⟩ : ∃ (r : Fin 100000) (j : Fin 40), i = ix2 r j := ⟨i 0, i 1, eq_ix2 i⟩
  rw [logSoftmaxLayer_ix2, out_ix2]
  exact congrArg (fun y => logSoftmaxRow y j) (funext fun k => pre2_ix2 x0 x1 x2 x3 x4 x5 x6 x7 r k)

end Cert.ReferenceIdeal.RefLayers

end
-- ==== Proof.lean ====
/-
  A two-layer hypergraph convolution: the Pallas program against its jnp reference, on the extended reals.

  Both programs average node features over hyperedges and back (gathers and scatter-adds over 800000 incidences, done by the
  same host operations in both), then apply a dense layer to every node: divide the node's summed features by its degree
  floored at one, multiply by a weight matrix, add a bias; the first layer ends in a relu, the second in a row-wise
  log-softmax. The reference does the dense layers on the host; the Pallas program does each in a pallas_call over blocks of
  rows (5000 rows per grid point in the first, 10000 in the second), the weights rounded to bf16 on the way into the matrix
  unit. On the extended reals the rounding is the identity, the matrix unit's product into a zero accumulator and the host's
  dot_general are the same sum of products, the kernel's lane maximum and lane sum and the host's reductions are the same fold
  and the same sum, and an output row depends only on its own input row, so the blocks assemble to the whole array: both
  programs end with one and the same function of the argument arrays (`val_main_v117`, the reference's result read one
  operation at a time). No law used needs finiteness: the precondition is never opened.

  The frames of the two kernel programs are the generated frame certificates; the reference's frame is its run with the
  result dropped; the idealization rewrote nothing, so `preserves` is trivial.
-/
import proofs.«180286_j58042188038707_1_alg».proof.Defs
import proofs.«180286_j58042188038707_1_alg».proof.Proof.Gen.Kernel
import proofs.«180286_j58042188038707_1_alg».proof.Proof.Gen.Kernel.Skeleton
import proofs.«180286_j58042188038707_1_alg».proof.Proof.Gen.Kernel.Launch
import proofs.«180286_j58042188038707_1_alg».proof.Proof.Gen.Kernel.Points
import proofs.«180286_j58042188038707_1_alg».proof.Proof.Gen.Kernel.Frame
import proofs.«180286_j58042188038707_1_alg».proof.Proof.Gen.KernelIdeal
import proofs.«180286_j58042188038707_1_alg».proof.Proof.Gen.KernelIdeal.Skeleton
import proofs.«180286_j58042188038707_1_alg».proof.Proof.Gen.KernelIdeal.Launch
import proofs.«180286_j58042188038707_1_alg».proof.Proof.Gen.KernelIdeal.Points
import proofs.«180286_j58042188038707_1_alg».proof.Proof.Gen.KernelIdeal.Frame
import proofs.«180286_j58042188038707_1_alg».proof.Proof.Gen.ReferenceIdeal
import proofs.«180286_j58042188038707_1_alg».proof.Proof.Gen.Pre_finite_inputs
import proofs.«180286_j58042188038707_1_alg».proof.Proof.KernelRun
import proofs.«180286_j58042188038707_1_alg».proof.Proof.HostGlue
import proofs.«180286_j58042188038707_1_alg».proof.Proof.RefRunChunks
import proofs.«180286_j58042188038707_1_alg».proof.Proof.RefLayers
import Idealize.ShloMosaic.Adequacy
import Idealize.ShloMosaic.Init

noncomputable section

namespace Cert.Proof

open Idealize.ShloMosaic Idealize.SL.Sem

/-- The reference's first layer is the relu layer of its summed features, its degrees and its bias row. -/
theorem law1 : Cert.KernelIdeal.Layers.Layer1Law :=
  fun x0 x1 x2 x3 x4 x5 => Cert.ReferenceIdeal.RefLayers.layer1_eq x0 x1 x2 x3 x4 x5

/-- The reference's second layer is the log-softmax layer of its second summed features. -/
theorem law2 : Cert.KernelIdeal.Layers.Layer2Law :=
  fun x0 x1 x2 x3 x4 x5 x6 x7 => Cert.ReferenceIdeal.RefLayers.layer2_eq x0 x1 x2 x3 x4 x5 x6 x7

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both idealized programs end with the reference's result function of the argument arrays: the Pallas program by its
    run, its two calls' output arrays and its host operations read against the reference's stages; the reference by its
    own run, at arguments that agree. -/
theorem algebraic : Cert.algebraic_KernelIdeal_ReferenceIdeal := by
  intro m ρ m' ρ' _ hagree
  refine ⟨fun c => Cert.ReferenceIdeal.ReadP.val_main_v117 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Layers.result_eq m ρ law1 law2 c), (h c).2⟩)
      (Cert.KernelIdeal.Layers.run_result m ρ)
  · refine (θ_run Cert.ReferenceIdeal.defs _ _).mono (fun _ h c => ⟨(h c).1.trans ?_, (h c).2⟩) (Cert.ReferenceIdeal.RefRun.run m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
